-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S2048x2048 : Shape := ⟨2, ![2048, 2048]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S2048x2048 : S_.BroadcastsInDim S2048x2048 (![] : Fin 0 → Fin S2048x2048.rank)
  reducesTo_S2048x2048_S_d0_1 : S2048x2048.ReducesTo [0, 1] S_

variable [Facts]

def fn_part3 {F : FTy → Type} [FloatOps F] (main_arg11 : FVec F S2048x2048 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  main_v58

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S2048x2048 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S2048x2048 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8x2048x1024 .f32) (main_arg1 : FVec F S8x2048x1024 .f32) (main_arg2 : FVec F S8x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S2048x2048 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048x1024 .f32 := Host.absf main_arg2
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_v13 main_v16
-- ==== Kernel.lean ====
abbrev S8x2048x1024 : Shape := ⟨3, ![8, 2048, 1024]⟩
abbrev S1024x1024 : Shape := ⟨2, ![1024, 1024]⟩
abbrev S1024 : Shape := ⟨1, ![1024]⟩
abbrev S2048x2048 : Shape := ⟨2, ![2048, 2048]⟩
abbrev S1x1024 : Shape := ⟨2, ![1, 1024]⟩
abbrev S16384x1024 : Shape := ⟨2, ![16384, 1024]⟩
abbrev S512x1024 : Shape := ⟨2, ![512, 1024]⟩
abbrev S8x2048x2048 : Shape := ⟨3, ![8, 2048, 2048]⟩
abbrev S1x256x1024 : Shape := ⟨3, ![1, 256, 1024]⟩
abbrev S1x2048x1024 : Shape := ⟨3, ![1, 2048, 1024]⟩
abbrev S256x2048 : Shape := ⟨2, ![256, 2048]⟩
abbrev S1x256x2048 : Shape := ⟨3, ![1, 256, 2048]⟩
abbrev S256x1024 : Shape := ⟨2, ![256, 1024]⟩
abbrev S2048x1024 : Shape := ⟨2, ![2048, 1024]⟩
abbrev S1024x2048 : Shape := ⟨2, ![1024, 2048]⟩
abbrev S256 : Shape := ⟨1, ![256]⟩
abbrev S256x1 : Shape := ⟨2, ![256, 1]⟩

abbrev nBuf : Space → Nat
  | .hbm => 36
  | .vmem => 32
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S2048x2048, .f32⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S1024x1024, .f32⟩
  | .hbm, ⟨19, _⟩ => ⟨S1024x1024, .bf16⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .bf16⟩
  | .hbm, ⟨28, _⟩ => ⟨S16384x1024, .bf16⟩
  | .hbm, ⟨29, _⟩ => ⟨S16384x1024, .bf16⟩
  | .hbm, ⟨30, _⟩ => ⟨S8x2048x1024, .bf16⟩
  | .hbm, ⟨31, _⟩ => ⟨S8x2048x1024, .bf16⟩
  | .hbm, ⟨32, _⟩ => ⟨S8x2048x1024, .bf16⟩
  | .hbm, ⟨33, _⟩ => ⟨S2048x2048, .bf16⟩
  | .hbm, ⟨34, _⟩ => ⟨S8x2048x1024, .f32⟩
  | .hbm, ⟨35, _⟩ => ⟨S8x2048x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x2048x1024, .bf16⟩
  | .local _ .vmem, ⟨21, _⟩ => ⟨S1x2048x1024, .bf16⟩
  | .local _ .vmem, ⟨22, _⟩ => ⟨S1x2048x1024, .bf16⟩
  | .local _ .vmem, ⟨23, _⟩ => ⟨S1x2048x1024, .bf16⟩
  | .local _ .vmem, ⟨24, _⟩ => ⟨S256x2048, .bf16⟩
  | .local _ .vmem, ⟨25, _⟩ => ⟨S256x2048, .bf16⟩
  | .local _ .vmem, ⟨26, _⟩ => ⟨S1024x1024, .bf16⟩
  | .local _ .vmem, ⟨27, _⟩ => ⟨S1x1024, .f32⟩
  | .local _ .vmem, ⟨28, _⟩ => ⟨S1x256x1024, .f32⟩
  | .local _ .vmem, ⟨29, _⟩ => ⟨S1x256x1024, .f32⟩
  | .local _ .vmem, ⟨30, _⟩ => ⟨S1x256x2048, .f32⟩
  | .local _ .vmem, ⟨31, _⟩ => ⟨S1x256x2048, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev main_v15_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem5_0 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x256x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  shapeCasts_S8x2048x1024_S16384x1024 : S8x2048x1024.ShapeCasts S16384x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S16384x1024_S8x2048x1024 : S16384x1024.ShapeCasts S8x2048x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  transposes_S2048x1024_p1_0_S1024x2048 : S2048x1024.Transposes [1, 0] S1024x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  broadcasts_S1x1024_S256x1024 : S1x1024.Broadcasts S256x1024
  shapeCasts_S256x1024_S1x256x1024 : S256x1024.ShapeCasts S1x256x1024
  dot_S512x1024_S1024x1024_S512x1024_1_0_0_1_n_n_wf : DotDims.WF S512x1024 S1024x1024 S512x1024 [1] [0] [0] [1] [] []
  dot_S256x1024_S1024x2048_S256x2048_1_0_0_1_n_n_wf : DotDims.WF S256x1024 S1024x2048 S256x2048 [1] [0] [0] [1] [] []
  dot_S256x2048_S2048x1024_S256x1024_1_0_0_1_n_n_wf : DotDims.WF S256x2048 S2048x1024 S256x1024 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S16384x1024.size a
  hwx0_9 : ∀ i : grid0.Coords, EltTy.bits .bf16 = 32 ∨ (Rect.block (s := S16384x1024) S512x1024.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1024.size a ≤ S16384x1024.size a
  hwx0_10 : ∀ i : grid0.Coords, EltTy.bits .bf16 = 32 ∨ (Rect.block (s := S16384x1024) S512x1024.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x1024.size a ≤ S16384x1024.size a
  hwx0_11 : ∀ i : grid0.Coords, EltTy.bits .bf16 = 32 ∨ (Rect.block (s := S16384x1024) S512x1024.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S8x2048x1024.size a
  hwx1_0 : ∀ i : grid1.Coords, EltTy.bits .bf16 = 32 ∨ (Rect.block (s := S8x2048x1024) S1x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S8x2048x1024.size a
  hwx1_1 : ∀ i : grid1.Coords, EltTy.bits .bf16 = 32 ∨ (Rect.block (s := S8x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S8x2048x1024.size a
  hwx1_2 : ∀ i : grid1.Coords, EltTy.bits .bf16 = 32 ∨ (Rect.block (s := S8x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S2048x2048.size a
  hwx1_3 : ∀ i : grid1.Coords, EltTy.bits .bf16 = 32 ∨ (Rect.block (s := S2048x2048) S256x2048.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .bf16 = 32 ∨ (Rect.block (s := S1024x1024) S1024x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256x1024.size a ≤ S8x2048x1024.size a
  hwx1_6 : ∀ i : grid1.Coords, EltTy.bits .f32 = 32 ∨ (Rect.block (s := S8x2048x1024) S1x256x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x256x2048.size a ≤ S8x2048x2048.size a
  hwx1_7 : ∀ i : grid1.Coords, EltTy.bits .f32 = 32 ∨ (Rect.block (s := S8x2048x2048) S1x256x2048.size (cc1_transform_7 i) (hinb1_7 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v12) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15_0) S512x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v15_1) S512x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v15_2) S512x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v16) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S256x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20_0) S1x256x1024.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v20_1) S1x256x2048.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S2048x2048 : Shape := ⟨2, ![2048, 2048]⟩
abbrev S1x1x1024 : Shape := ⟨3, ![1, 1, 1024]⟩
abbrev S8x2048x2048 : Shape := ⟨3, ![8, 2048, 2048]⟩
abbrev S_ : Shape := ⟨0, ![]⟩
abbrev S1x2048x2048 : Shape := ⟨3, ![1, 2048, 2048]⟩
abbrev S8x2048 : Shape := ⟨2, ![8, 2048]⟩
abbrev S8x2048x1 : Shape := ⟨3, ![8, 2048, 1]⟩

abbrev nBuf : Space → Nat
  | .hbm => 51
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S2048x2048, .f32⟩
  | .hbm, ⟨12, _⟩ => ⟨S8x2048x1024, .f32⟩
  | .hbm, ⟨13, _⟩ => ⟨S1x1x1024, .f32⟩
  | .hbm, ⟨14, _⟩ => ⟨S8x2048x1024, .f32⟩
  | .hbm, ⟨15, _⟩ => ⟨S8x2048x1024, .f32⟩
  | .hbm, ⟨16, _⟩ => ⟨S8x2048x1024, .f32⟩
  | .hbm, ⟨17, _⟩ => ⟨S1x1x1024, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S8x2048x2048, .f32⟩
  | .hbm, ⟨25, _⟩ => ⟨S_, .f32⟩
  | .hbm, ⟨26, _⟩ => ⟨S_, .f32⟩
  | .hbm, ⟨27, _⟩ => ⟨S8x2048x2048, .f32⟩
  | .hbm, ⟨28, _⟩ => ⟨S8x2048x2048, .f32⟩
  | .hbm, ⟨29, _⟩ => ⟨S1x2048x2048, .f32⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S8x2048, .f32⟩
  | .hbm, ⟨34, _⟩ => ⟨S_, .f32⟩
  | .hbm, ⟨35, _⟩ => ⟨S8x2048, .f32⟩
  | .hbm, ⟨36, _⟩ => ⟨S8x2048, .f32⟩
  | .hbm, ⟨37, _⟩ => ⟨S8x2048x1, .f32⟩
  | .hbm, ⟨38, _⟩ => ⟨S8x2048x2048, .f32⟩
  | .hbm, ⟨39, _⟩ => ⟨S8x2048x2048, .f32⟩
  | .hbm, ⟨40, _⟩ => ⟨S8x2048x2048, .f32⟩
  | .hbm, ⟨41, _⟩ => ⟨S_, .f32⟩
  | .hbm, ⟨42, _⟩ => ⟨S8x2048, .f32⟩
  | .hbm, ⟨43, _⟩ => ⟨S8x2048x1, .f32⟩
  | .hbm, ⟨44, _⟩ => ⟨S8x2048x2048, .f32⟩
  | .hbm, ⟨45, _⟩ => ⟨S8x2048x2048, .f32⟩
  | .hbm, ⟨46, _⟩ => ⟨S8x2048x1024, .f32⟩
  | .hbm, ⟨47, _⟩ => ⟨S8x2048x1024, .f32⟩
  | .hbm, ⟨48, _⟩ => ⟨S1x1x1024, .f32⟩
  | .hbm, ⟨49, _⟩ => ⟨S8x2048x1024, .f32⟩
  | .hbm, ⟨50, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_0 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x2048 : S_.BroadcastsInDim S8x2048x2048 (![] : Fin 0 → Fin S8x2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.KernelRun.lean ====
/-
  The idealized kernel's run with its two results named.

  @main is four segments: the host's transposes and reshapes, the projection kernel's grid, three reshapes and a
  format change, and the attention kernel's grid. Every weakly fair execution runs them in order and ends with each
  unscoped buffer at the contents the segments' fold leaves (`W4`); the frame claim reads the twelve arguments off
  that final state, and this theorem reads the two result buffers off it as well: the output projection and the
  attention weights are what the attention kernel's write-backs leave.
-/
import proofs.«155491_j8237747273925_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates without a fault; the two result buffers end at what the
    segments' fold leaves in them, and the arguments end as launched. -/
theorem run_results : θ_run defs (onTc (τ := τ) (main (F := F))) ⟨m, fun _ => 0, ρ⟩ (fun r => ∀ c : Dev nD,
      r.2.mem ((c.tc : Thread nD τ).loc main_v20_0) = W4 m ρ c (Proc.devRef .tc main_v20_0)
      ∧ r.2.mem ((c.tc : Thread nD τ).loc main_v20_1) = W4 m ρ c (Proc.devRef .tc main_v20_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v20_0 (by decide)),
       h c _ (mem_uc main_v20_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.Results

end
-- ==== Proof.LibContractPlain.lean ====
/-
  A plain matrix product — the columns of an `A × K` left operand contracted with the rows of a `K × B` right
  operand — read at an entry, generic in the sizes and in the precision attribute.

  The product's entry `(i, j)` is the sum over the contracted coordinate `k` of `l (i, k) · r (k, j)`. Over the
  extended reals this holds of the kernel's matrix product accumulated into a zero constant
  (`matmulPlain_zero_apply`) and of the host's `dot_general` with these dimension numbers (`dotPlain_apply`),
  whatever the operands' float formats and the requested precision: at the ideal values no rounding is left in
  either, and the accumulator `0` is the neutral element.
-/
import Idealize.ShloMosaic.Lib.ValueIdx
import Idealize.ShloMosaic.PureOps.Ideal.Laws

noncomputable section

open scoped BigOperators

namespace Cert.LibContractPlain

open Idealize.ShloMosaic Idealize.ShloMosaic.ValueIdx

/-- The dimension numbers of the plain product of an `A × K` by a `K × B` matrix: axis 1 of the left operand
    contracted with axis 0 of the right one, no batch axes. -/
abbrev plainDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- The sum over the contraction index of these dimension numbers, at the entry `(i, j)`, is the sum over the
    shared coordinate `k` of the left operand at `(i, k)` times the right operand at `(k, j)`. -/
theorem contraction_eq {α : Type} [AddCommMonoid α] [Mul α] (A K B : Nat)
    (wf : DotDims.WF ⟨2, ![A, K]⟩ ⟨2, ![K, B]⟩ ⟨2, ![A, B]⟩ [1] [0] [0] [1] [] [])
    (l : (⟨2, ![A, K]⟩ : Shape).Idx → α) (r : (⟨2, ![K, B]⟩ : Shape).Idx → α) (i : Fin A) (j : Fin B) :
    ∑ q : (plainDims A K B wf).contr.Idx,
        l ((plainDims A K B wf).lhsIdx (ix2 i j) q) * r ((plainDims A K B wf).rhsIdx (ix2 i j) q)
      = ∑ k : Fin K, l (ix2 i k) * r (ix2 k j) := by
  rw [← Equiv.sum_comp (contrEquiv1 (plainDims A K B wf) K rfl rfl).symm]
  refine Finset.sum_congr rfl fun c _ => ?_
  have c2 := contrEquiv1_symm_val (plainDims A K B wf) K rfl rfl c
  have l2 : (plainDims A K B wf).lhsIdx (ix2 i j) ((contrEquiv1 _ K rfl rfl).symm c) = ix2 i c := by
    funext ax; apply Fin.ext
    match ax with
    | ⟨0, _⟩ => simp [DotDims.lhsIdx]; rfl
    | ⟨1, _⟩ => simp [DotDims.lhsIdx]; exact c2
  have r2 : (plainDims A K B wf).rhsIdx (ix2 i j) ((contrEquiv1 _ K rfl rfl).symm c) = ix2 c j := by
    funext ax; apply Fin.ext
    match ax with
    | ⟨0, _⟩ => simp [DotDims.rhsIdx]; exact c2
    | ⟨1, _⟩ => simp [DotDims.rhsIdx]; rfl
  rw [l2, r2]

/-- THE HOST'S PLAIN PRODUCT read at `(i, j)`, over the extended reals. -/
theorem dotPlain_apply {φ₁ φ₂ : FTy} (A K B : Nat)
    (wf : DotDims.WF ⟨2, ![A, K]⟩ ⟨2, ![K, B]⟩ ⟨2, ![A, B]⟩ [1] [0] [0] [1] [] [])
    (prec : Option ContractPrecision)
    (l : FVec Ideal ⟨2, ![A, K]⟩ φ₁) (r : FVec Ideal ⟨2, ![K, B]⟩ φ₂) (i : Fin A) (j : Fin B) :
    Host.dotGeneral (plainDims A K B wf) prec l r (ix2 i j) = ∑ k : Fin K, l (ix2 i k) * r (ix2 k j) := by
  show FloatOps.dotGeneral _ prec _ l r (ix2 i j) = _
  rw [Ideal.dotGeneral_apply]
  exact contraction_eq A K B wf l r i j

/-- THE KERNEL'S PLAIN PRODUCT INTO A ZERO ACCUMULATOR read at `(i, j)`, over the extended reals: the same sum. -/
theorem matmulPlain_zero_apply {φ₁ φ₂ : FTy} (A K B : Nat)
    (wf : DotDims.WF ⟨2, ![A, K]⟩ ⟨2, ![K, B]⟩ ⟨2, ![A, B]⟩ [1] [0] [0] [1] [] [])
    (prec : Option ContractPrecision)
    (l : FVec Ideal ⟨2, ![A, K]⟩ φ₁) (r : FVec Ideal ⟨2, ![K, B]⟩ φ₂) (i : Fin A) (j : Fin B) :
    FloatOps.matmul (plainDims A K B wf) prec l r (constant (F := Ideal) ⟨2, ![A, B]⟩ .f32 0x00000000#32) (ix2 i j)
      = ∑ k : Fin K, l (ix2 i k) * r (ix2 k j) := by
  rw [Ideal.matmul_constant_zero_apply]
  exact contraction_eq A K B wf l r i j

end Cert.LibContractPlain

end
-- ==== Proof.LibLayout.lean ====
/-
  Two column layouts of small arrays read at an index: a vector viewed as a one-column matrix, and a one-column
  matrix repeated along its rows' second axis. (The library has the row forms; these are the column forms a
  keep-dimensions row reduction produces.)
-/
import Idealize.ShloMosaic.Lib.Pipeline.Value
import Idealize.ShloMosaic.Lib.ValueIdx

namespace Cert.Attn.Layout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Attn.Layout
-- ==== Proof.Consts.lean ====
/-
  The float constants the two programs spell, as the extended reals their words denote, and the one algebraic
  law that joins the two sides of the claim.

  The kernel scales the query tile by the word `0x3D000000`, which is `2⁻⁵ = 1/32`; the reference divides the
  score matrix by `sqrt 1024 = 32`. On the extended reals division by the real `32` is the product with `1/32`,
  and the product with a nonnegative real distributes over every sum (infinite terms included), so
  `∑ (x d · 1/32) · y d = (∑ x d · y d) / 32` with no finiteness assumption.
-/
import Idealize.ShloMosaic.PureOps.Ideal
import Idealize.ShloMosaic.PureOps.Ideal.Laws

noncomputable section

open scoped BigOperators

namespace Cert.Attn.Consts

open Idealize.ShloMosaic

/-- `1024.0` denotes the real `1024`. -/
theorem ofBits_1024 : Ideal.ofBits .f32 0x44800000#32 = ((1024 : ℝ) : EReal) := by
  simp [Ideal.ofBits, Ideal.ieee, -EReal.coe_mul]; norm_num

/-- `0.03125` denotes the real `1/32`. -/
theorem ofBits_inv32 : Ideal.ofBits .f32 0x3D000000#32 = ((1 / 32 : ℝ) : EReal) := by
  simp [Ideal.ofBits, Ideal.ieee, -EReal.coe_mul]; norm_num

/-- The word `0xFF800000` denotes `-∞`, the bottom of the extended reals. -/
theorem ofBits_negInf : Ideal.ofBits .f32 0xFF800000#32 = (⊥ : EReal) := by
  simp [Ideal.ofBits, Ideal.ieee]

/-- The square root of `1024` is `32`. -/
theorem sqrt_1024 : Ideal.sqrt ((1024 : ℝ) : EReal) = ((32 : ℝ) : EReal) := by
  show (if (1024 : ℝ) < 0 then (⊥ : EReal) else (Real.sqrt 1024 : EReal)) = _
  rw [if_neg (by norm_num)]
  have h : Real.sqrt 1024 = 32 := by
    rw [show (1024 : ℝ) = 32 ^ 2 by norm_num]
    exact Real.sqrt_sq (by norm_num)
  rw [h]

/-- The reference's divisor: the square root of the word `1024.0` is the real `32`. -/
theorem sqrt_ofBits_1024 : Ideal.sqrt (Ideal.ofBits .f32 0x44800000#32) = ((32 : ℝ) : EReal) := by
  rw [ofBits_1024, sqrt_1024]

/-- A nonnegative real factor moves across a finite sum of extended reals. -/
theorem sum_mul_coe {ι : Type} (s : Finset ι) (f : ι → EReal) {c : ℝ} (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (EReal.coe_nonneg.mpr hc) (EReal.coe_ne_top c)]

/-- THE LAW: scaling one factor of every product by `1/32` before summing is dividing the sum by `32`. -/
theorem scaled_dot {ι : Type} (s : Finset ι) (x y : ι → EReal) :
    ∑ d ∈ s, (x d * ((1 / 32 : ℝ) : EReal)) * y d = Ideal.div (∑ d ∈ s, x d * y d) ((32 : ℝ) : EReal) := by
  rw [Ideal.div_coe (by norm_num : (32 : ℝ) ≠ 0), ← sum_mul_coe s _ (by norm_num : (0 : ℝ) ≤ 1 / 32)]
  refine Finset.sum_congr rfl fun d _ => ?_
  rw [mul_assoc, mul_comm ((1 / 32 : ℝ) : EReal), ← mul_assoc]

/-- The maximum with `-∞` on the left is the identity. -/
theorem max_negInf (x : EReal) : max (Ideal.ofBits .f32 0xFF800000#32) x = x := by
  rw [ofBits_negInf]; exact max_bot_left x

end Cert.Attn.Consts

end
-- ==== Proof.Spec.lean ====
/-
  The attention head as plain functions of its twelve argument arrays, coordinate by coordinate.

  * a linear layer: `lin x w bias (b, s, e) = ∑ d, x (b, s, d) · w (e, d) + bias e`  (x · wᵀ + bias);
  * a score: `(∑ d, Q (b, q, d) · K (b, k, d)) / 32 + pos (q, k)`;
  * a row's softmax: with `M` the row's maximum, `exp (f k − M) / ∑ k', exp (f k' − M)`;
  * the context `∑ k, P (b, q, k) · V (b, k, d)` and the output layer over it.

  The kernel spells the score with the factor `1/32` folded into the query before the sum; `kscore_eq` says the two
  spellings are one extended real, for every value of the operands.
-/
import proofs.«155491_j8237747273925_2_alg».proof.Proof.Consts
import Idealize.ShloMosaic.Lib.ValueIdx

noncomputable section

open scoped BigOperators

namespace Cert.Attn.Spec

open Idealize.ShloMosaic Idealize.ShloMosaic.ValueIdx

/-- A rank-3 function of batch, position and feature. -/
abbrev Act : Type := Fin 8 → Fin 2048 → Fin 1024 → EReal

/-- The maximum of a row of 2048 scores, folded from `-∞`. -/
def rowMax (f : Fin 2048 → EReal) : EReal :=
  (Finset.univ : Finset (Fin 2048)).fold max (Ideal.ofBits .f32 0xFF800000#32) f

/-- A row's softmax at `k`. -/
def softmax (f : Fin 2048 → EReal) (k : Fin 2048) : EReal :=
  Ideal.div (Ideal.exp (f k - rowMax f)) (∑ k' : Fin 2048, Ideal.exp (f k' - rowMax f))

/-- A linear layer `x · wᵀ + bias`. -/
def lin (x : (⟨3, ![8, 2048, 1024]⟩ : Shape).Idx → EReal) (w : (⟨2, ![1024, 1024]⟩ : Shape).Idx → EReal)
    (bias : (⟨1, ![1024]⟩ : Shape).Idx → EReal) : Act :=
  fun b s e => (∑ d : Fin 1024, x (ix3 b s d) * w (ix2 e d)) + bias (ix1 e)

/-- The scaled dot-product score with the positional bias. -/
def score (Q K : Act) (pos : (⟨2, ![2048, 2048]⟩ : Shape).Idx → EReal) (b : Fin 8) (q k : Fin 2048) : EReal :=
  Ideal.div (∑ d : Fin 1024, Q b q d * K b k d) ((32 : ℝ) : EReal) + pos (ix2 q k)

/-- The same score as the kernel spells it: the query scaled by the word `0.03125` before the sum. -/
def kscore (Q K : Act) (pos : (⟨2, ![2048, 2048]⟩ : Shape).Idx → EReal) (b : Fin 8) (q k : Fin 2048) : EReal :=
  (∑ d : Fin 1024, (Q b q d * Ideal.ofBits .f32 0x3D000000#32) * K b k d) + pos (ix2 q k)

theorem kscore_eq (Q K : Act) (pos : (⟨2, ![2048, 2048]⟩ : Shape).Idx → EReal) (b : Fin 8) (q k : Fin 2048) :
    kscore Q K pos b q k = score Q K pos b q k := by
  unfold kscore score
  rw [Consts.ofBits_inv32, Consts.scaled_dot]

/-- The attention weights. -/
def probs (Q K : Act) (pos : (⟨2, ![2048, 2048]⟩ : Shape).Idx → EReal) (b : Fin 8) (q k : Fin 2048) : EReal :=
  softmax (fun k' => score Q K pos b q k') k

/-- The attention weights over the kernel's spelling of the score: the same. -/
theorem softmax_kscore (Q K : Act) (pos : (⟨2, ![2048, 2048]⟩ : Shape).Idx → EReal) (b : Fin 8) (q k : Fin 2048) :
    softmax (fun k' => kscore Q K pos b q k') k = probs Q K pos b q k := by
  unfold probs
  rw [show (fun k' => kscore Q K pos b q k') = fun k' => score Q K pos b q k' from funext fun k' => kscore_eq Q K pos b q k']

/-- The weighted sum of the values. -/
def ctx (Q K Vv : Act) (pos : (⟨2, ![2048, 2048]⟩ : Shape).Idx → EReal) (b : Fin 8) (q : Fin 2048) (d : Fin 1024) : EReal :=
  ∑ k : Fin 2048, probs Q K pos b q k * Vv b k d

/-- The output layer over the context. -/
def outp (Q K Vv : Act) (pos : (⟨2, ![2048, 2048]⟩ : Shape).Idx → EReal) (wo : (⟨2, ![1024, 1024]⟩ : Shape).Idx → EReal)
    (bo : (⟨1, ![1024]⟩ : Shape).Idx → EReal) (b : Fin 8) (q : Fin 2048) (e : Fin 1024) : EReal :=
  (∑ d : Fin 1024, ctx Q K Vv pos b q d * wo (ix2 e d)) + bo (ix1 e)

end Cert.Attn.Spec

end
-- ==== Proof.AttnBody.lean ====
/-
  The attention kernel's body at an entry.

  On one tile of 256 query rows the body computes, for row `p` and key `k`, the score
  `∑ d, (q (p, d) · 0.03125) · key (k, d) + pos (p, k)`, then the row's softmax (its maximum folded from `-∞`, the
  exponentials of the differences, their sum, the quotient); it stores those weights, multiplies them into the
  value block (`∑ k, P (p, k) · value (k, d)`), and applies the output layer (`∑ d, · w (d, e) + bias e`). Changes
  of float format are identities on the extended reals and each matrix product accumulates into zero.
-/
import proofs.«155491_j8237747273925_2_alg».proof.Proof.Gen.KernelIdeal.Skeleton
import proofs.«155491_j8237747273925_2_alg».proof.Proof.LibContractPlain
import proofs.«155491_j8237747273925_2_alg».proof.Proof.LibLayout
import proofs.«155491_j8237747273925_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Attn.AttnBody

open Cert.KernelIdeal Cert.KernelIdeal.Gen Idealize.ShloMosaic Idealize.ShloMosaic.ValueIdx

/-! ## The scores of a tile -/

/-- The tile's score at row `p`, key `k`. -/
def tScore (q : FVec Ideal S1x256x1024 .bf16) (kk : FVec Ideal S1x2048x1024 .bf16) (pb : FVec Ideal S256x2048 .bf16)
    (p : Fin 256) (k : Fin 2048) : EReal :=
  (∑ d : Fin 1024, (q (ix3 (0 : Fin 1) p d) * Ideal.ofBits .f32 0x3D000000#32) * kk (ix3 (0 : Fin 1) k d)) + pb (ix2 p k)

/-- The body's operations up to the biased scores. -/
def scoreTile (v0 : FVec Ideal S1x256x1024 .bf16) (v6 : FVec Ideal S1x2048x1024 .bf16) (v12 : FVec Ideal S256x2048 .bf16) :
    FVec Ideal S256x2048 .f32 :=
  addf
    (matmul dot_S256x1024_S1024x2048_S256x2048_1_0_0_1_n_n none
      (truncf .bf16 (mulf (extf .f32 (shapeCast S256x1024 v0 shapeCasts_S1x256x1024_S256x1024) bitsLt_bf16_f32)
        (broadcast S256x1024 (Scalar.ofBits (F := Ideal) .f32 0x3D000000#32))) bitsLt_bf16_f32)
      (transpose S1024x2048 [1, 0] (shapeCast S2048x1024 v6 shapeCasts_S1x2048x1024_S2048x1024) transposes_S2048x1024_p1_0_S1024x2048)
      (constant (F := Ideal) S256x2048 .f32 0x00000000#32))
    (extf .f32 (shapeCast S256x2048 v12 shapeCasts_S256x2048_S256x2048) bitsLt_bf16_f32)

theorem scoreTile_apply (v0 : FVec Ideal S1x256x1024 .bf16) (v6 : FVec Ideal S1x2048x1024 .bf16) (v12 : FVec Ideal S256x2048 .bf16)
    (p : Fin 256) (k : Fin 2048) : scoreTile v0 v6 v12 (ix2 p k) = tScore v0 v6 v12 p k := by
  unfold scoreTile tScore
  refine congrArg₂ (· + ·) ?_ ?_
  · refine (Cert.LibContractPlain.matmulPlain_zero_apply 256 1024 2048 _ none _ _ p k).trans ?_
    refine Finset.sum_congr rfl fun d _ => congrArg₂ (· * ·) ?_ ?_
    · show shapeCast S256x1024 v0 shapeCasts_S1x256x1024_S256x1024 (ix2 p d) * Ideal.ofBits .f32 0x3D000000#32 = _
      rw [shapeCast_1ab_ab_apply]
    · exact (transpose_ix2_apply _ _ d k).trans (shapeCast_1ab_ab_apply v6 _ k d)
  · show shapeCast S256x2048 v12 shapeCasts_S256x2048_S256x2048 (ix2 p k) = _
    rw [shapeCast_self]

/-! ## The softmax of a tile's rows -/

/-- A per-row value repeated along its row: `[256] → [256, 1] → [256, 2048]`. -/
def keep (w : FVec Ideal S256 .f32) : FVec Ideal S256x2048 .f32 :=
  broadcastTo S256x2048 (shapeCast S256x1 w shapeCasts_S256_S256x1) broadcasts_S256x1_S256x2048

theorem keep_apply (w : FVec Ideal S256 .f32) (p : Fin 256) (k : Fin 2048) : keep w (ix2 p k) = w (ix1 p) :=
  (Cert.Attn.Layout.broadcastTo_a1_ab_apply _ _ p k).trans (Cert.Attn.Layout.shapeCast_a_a1_apply w _ p 0)

/-- The rows' maxima. -/
def rowMaxV (s : FVec Ideal S256x2048 .f32) : FVec Ideal S256 .f32 :=
  multiReduction .maximumf [1] S256 s 0xFF800000#32 reduces_S256x2048_S256 (.inl rfl) rfl

theorem rowMaxV_apply (s : FVec Ideal S256x2048 .f32) (p : Fin 256) :
    rowMaxV s (ix1 p) = Spec.rowMax (fun k => s (ix2 p k)) := by
  unfold rowMaxV Spec.rowMax
  refine (Ideal.multiReduction_maximumf_single s 0xFF800000#32 reduces_S256x2048_S256 (.inl rfl) rfl (ix1 p)).trans ?_
  show (Finset.univ : Finset (Fin 2048)).fold max (Ideal.ofBits .f32 0xFF800000#32)
      (fun k => s (reduces_S256x2048_S256.lift (ix1 p) k)) = _
  refine congrArg (fun f => (Finset.univ : Finset (Fin 2048)).fold max (Ideal.ofBits .f32 0xFF800000#32) f) ?_
  funext k
  exact congrArg s (funext fun a => Fin.ext (match a with | ⟨0, _⟩ => rfl | ⟨1, _⟩ => rfl))

/-- The rows' sums. -/
def rowSumV (s : FVec Ideal S256x2048 .f32) : FVec Ideal S256 .f32 :=
  multiReduction .add [1] S256 s 0x00000000#32 reduces_S256x2048_S256 (.inl rfl) rfl

theorem rowSumV_apply (s : FVec Ideal S256x2048 .f32) (p : Fin 256) :
    rowSumV s (ix1 p) = ∑ k : Fin 2048, s (ix2 p k) := by
  unfold rowSumV
  refine (Ideal.multiReduction_add_single s 0x00000000#32 reduces_S256x2048_S256 (.inl rfl) rfl (ix1 p)).trans ?_
  show ∑ k : Fin 2048, s (reduces_S256x2048_S256.lift (ix1 p) k) = _
  refine Finset.sum_congr rfl fun k _ => ?_
  exact congrArg s (funext fun a => Fin.ext (match a with | ⟨0, _⟩ => rfl | ⟨1, _⟩ => rfl))

/-- The exponentials of the scores less their row's maximum. -/
def expTile (s : FVec Ideal S256x2048 .f32) : FVec Ideal S256x2048 .f32 := exp (subf s (keep (rowMaxV s)))

theorem expTile_apply (s : FVec Ideal S256x2048 .f32) (p : Fin 256) (k : Fin 2048) :
    expTile s (ix2 p k) = Ideal.exp (s (ix2 p k) - Spec.rowMax (fun k' => s (ix2 p k'))) := by
  show Ideal.exp (s (ix2 p k) - keep (rowMaxV s) (ix2 p k)) = _
  rw [keep_apply, rowMaxV_apply]

/-- The softmax of each row. -/
def smTile (s : FVec Ideal S256x2048 .f32) : FVec Ideal S256x2048 .f32 := divf (expTile s) (keep (rowSumV (expTile s)))

theorem smTile_apply (s : FVec Ideal S256x2048 .f32) (p : Fin 256) (k : Fin 2048) :
    smTile s (ix2 p k) = Spec.softmax (fun k' => s (ix2 p k')) k := by
  show Ideal.div (expTile s (ix2 p k)) (keep (rowSumV (expTile s)) (ix2 p k)) = _
  rw [keep_apply, rowSumV_apply, expTile_apply]
  unfold Spec.softmax
  refine congrArg (Ideal.div _) (Finset.sum_congr rfl fun k' _ => expTile_apply s p k')

/-! ## The payloads -/

/-- The weights the body stores are the softmax of its scores. -/
theorem pay2_eq (v0 : FVec Ideal S1x256x1024 .bf16) (v6 : FVec Ideal S1x2048x1024 .bf16) (v12 : FVec Ideal S256x2048 .bf16) :
    k1_pay2 (F := Ideal) v0 v6 v12 = smTile (scoreTile v0 v6 v12) := rfl

/-- The tile's attention weights at row `p`, key `k`. -/
def tProb (q : FVec Ideal S1x256x1024 .bf16) (kk : FVec Ideal S1x2048x1024 .bf16) (pb : FVec Ideal S256x2048 .bf16)
    (p : Fin 256) (k : Fin 2048) : EReal :=
  Spec.softmax (fun k' => tScore q kk pb p k') k

theorem pay2_apply (v0 : FVec Ideal S1x256x1024 .bf16) (v6 : FVec Ideal S1x2048x1024 .bf16) (v12 : FVec Ideal S256x2048 .bf16)
    (p : Fin 256) (k : Fin 2048) : k1_pay2 (F := Ideal) v0 v6 v12 (ix2 p k) = tProb v0 v6 v12 p k := by
  rw [pay2_eq, smTile_apply]
  unfold tProb
  rw [show (fun k' => scoreTile v0 v6 v12 (ix2 p k')) = fun k' => tScore v0 v6 v12 p k' from
    funext fun k' => scoreTile_apply v0 v6 v12 p k']

/-- The stored weights, with the block's leading unit axis. -/
theorem pay3_apply (v0 : FVec Ideal S1x256x1024 .bf16) (v6 : FVec Ideal S1x2048x1024 .bf16) (v12 : FVec Ideal S256x2048 .bf16)
    (u : Fin 1) (p : Fin 256) (k : Fin 2048) : k1_pay3 (F := Ideal) v0 v6 v12 (ix3 u p k) = tProb v0 v6 v12 p k := by
  unfold k1_pay3
  exact (shapeCast_ab_1ab_apply _ _ u p k).trans (pay2_apply v0 v6 v12 p k)

/-- The tile's output at row `p`, feature `e`. -/
def tOut (q : FVec Ideal S1x256x1024 .bf16) (kk vv : FVec Ideal S1x2048x1024 .bf16) (pb : FVec Ideal S256x2048 .bf16)
    (wo : FVec Ideal S1024x1024 .bf16) (bo : FVec Ideal S1x1024 .f32) (p : Fin 256) (e : Fin 1024) : EReal :=
  (∑ d : Fin 1024, (∑ k : Fin 2048, tProb q kk pb p k * vv (ix3 (0 : Fin 1) k d)) * wo (ix2 d e)) + bo (ix2 (0 : Fin 1) e)

/-- The context times the output weights, before the bias. -/
theorem pay4_apply (v0 : FVec Ideal S1x256x1024 .bf16) (v6 v8 : FVec Ideal S1x2048x1024 .bf16) (v12 : FVec Ideal S256x2048 .bf16)
    (v31 : FVec Ideal S1024x1024 .bf16) (p : Fin 256) (e : Fin 1024) :
    k1_pay4 (F := Ideal) v0 v6 v8 v12 v31 (ix2 p e)
      = ∑ d : Fin 1024, (∑ k : Fin 2048, tProb v0 v6 v12 p k * v8 (ix3 (0 : Fin 1) k d)) * v31 (ix2 d e) := by
  unfold k1_pay4
  refine (Cert.LibContractPlain.matmulPlain_zero_apply 256 1024 1024 _ none _ _ p e).trans ?_
  refine Finset.sum_congr rfl fun d _ => congrArg₂ (· * ·) ?_ ?_
  · refine (Cert.LibContractPlain.matmulPlain_zero_apply 256 2048 1024 _ none _ _ p d).trans ?_
    refine Finset.sum_congr rfl fun k _ => congrArg₂ (· * ·) ?_ ?_
    · exact pay2_apply v0 v6 v12 p k
    · exact shapeCast_1ab_ab_apply v8 _ k d
  · show shapeCast S1024x1024 v31 shapeCasts_S1024x1024_S1024x1024 (ix2 d e) = _
    rw [shapeCast_self]

/-- The stored output, with the block's leading unit axis. -/
theorem pay1_apply (v0 : FVec Ideal S1x256x1024 .bf16) (v6 v8 : FVec Ideal S1x2048x1024 .bf16) (v12 : FVec Ideal S256x2048 .bf16)
    (v31 : FVec Ideal S1024x1024 .bf16) (v34 : FVec Ideal S1x1024 .f32) (u : Fin 1) (p : Fin 256) (e : Fin 1024) :
    k1_pay1 (F := Ideal) (k1_pay4 v0 v6 v8 v12 v31) v34 (ix3 u p e) = tOut v0 v6 v8 v12 v31 v34 p e := by
  unfold k1_pay1 tOut
  refine (shapeCast_ab_1ab_apply _ _ u p e).trans ?_
  refine congrArg₂ (· + ·) (pay4_apply v0 v6 v8 v12 v31 p e) ?_
  refine (broadcastTo_1b_ab_apply _ _ p e).trans ?_
  rw [shapeCast_self]

end Cert.Attn.AttnBody

end
-- ==== Proof.AttnArray.lean ====
/-
  The attention kernel's two output arrays as whole-array functions.

  Grid point `(b, g)` of 8 × 8 reads query rows `256 g … 256 g + 255` of batch `b`, all 2048 key and value rows of
  batch `b`, rows `256 g …` of the positional bias, the whole output weights and bias row, and writes the same rows
  of batch `b` of both outputs. So the attention-weights array holds at `(b, q, k)` the softmax over `k` of the
  scores of query row `q`, and the output array at `(b, q, e)` the output layer of that row's context: each block
  is a restriction of one function of the arrays the region finds, and the blocks tile both arrays.
-/
import proofs.«155491_j8237747273925_2_alg».proof.Proof.Gen.KernelIdeal.Frame
import proofs.«155491_j8237747273925_2_alg».proof.Proof.AttnBody

set_option maxRecDepth 16384

noncomputable section

open scoped BigOperators

namespace Cert.Attn.AttnArray

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- A rank-3 array read by coordinates. -/
def act (x : S8x2048x1024.Idx → EReal) : Spec.Act := fun b s e => x (ix3 b s e)

/-- The attention weights of the arrays a region finds. -/
def probG (qA kA : S8x2048x1024.Idx → EReal) (pA : S2048x2048.Idx → EReal) (b : Fin 8) (q k : Fin 2048) : EReal :=
  Spec.softmax (fun k' => Spec.kscore (act qA) (act kA) pA b q k') k

/-- The output of the arrays a region finds, over the transposed output weights and the bias row. -/
def outG (qA kA vA : S8x2048x1024.Idx → EReal) (pA : S2048x2048.Idx → EReal) (woT : S1024x1024.Idx → EReal)
    (bo2 : S1x1024.Idx → EReal) (b : Fin 8) (q : Fin 2048) (e : Fin 1024) : EReal :=
  (∑ d : Fin 1024, (∑ k : Fin 2048, probG qA kA pA b q k * vA (ix3 b k d)) * woT (ix2 d e)) + bo2 (ix2 (0 : Fin 1) e)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid, each against the output window's: the query and both outputs sit at block
    `(b, g, 0)`, the keys and values at `(b, 0, 0)`, the positional bias at `(g, 0)`, the output weights and bias at
    `(0, 0)`. -/
theorem idx_facts : ∀ t : Fin cfg1.N,
    (win1_0.index t (0 : Fin 3) = win1_6.index t (0 : Fin 3) ∧ win1_0.index t (1 : Fin 3) = win1_6.index t (1 : Fin 3) ∧ win1_0.index t (2 : Fin 3) = 0)
    ∧ (win1_1.index t (0 : Fin 3) = win1_6.index t (0 : Fin 3) ∧ win1_1.index t (1 : Fin 3) = 0 ∧ win1_1.index t (2 : Fin 3) = 0)
    ∧ (win1_2.index t (0 : Fin 3) = win1_6.index t (0 : Fin 3) ∧ win1_2.index t (1 : Fin 3) = 0 ∧ win1_2.index t (2 : Fin 3) = 0)
    ∧ (win1_3.index t (0 : Fin 2) = win1_6.index t (1 : Fin 3) ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_7.index t (0 : Fin 3) = win1_6.index t (0 : Fin 3) ∧ win1_7.index t (1 : Fin 3) = win1_6.index t (1 : Fin 3) ∧ win1_7.index t (2 : Fin 3) = 0)
    ∧ (win1_6.index t (0 : Fin 3) ≤ 7 ∧ win1_6.index t (1 : Fin 3) ≤ 7 ∧ win1_6.index t (2 : Fin 3) = 0) :=
  (by decide +kernel : ∀ t : Fin grid1.N, _)

/-- Every block `(b, g)` is some point's. -/
theorem idx_onto : ∀ (q0 : Fin 8) (q1 : Fin 8), ∃ t : Fin cfg1.N, win1_6.index t (0 : Fin 3) = q0.val ∧ win1_6.index t (1 : Fin 3) = q1.val :=
  (by decide +kernel : ∀ (q0 : Fin 8) (q1 : Fin 8), ∃ t : Fin grid1.N, win1_6.index t (0 : Fin 3) = q0.val ∧ win1_6.index t (1 : Fin 3) = q1.val)

/-! ## A tile's weights are the array's -/

/-- At point `t`, row `p` of the tile is query row `q = 256 g + p` of batch `b`: the tile's softmax is the array's. -/
theorem tProb_blk (c : Dev nD) (t : Fin cfg1.N) (p : Fin 256) (k : Fin 2048) (b : Fin 8) (q : Fin 2048)
    (hb : b.val = win1_6.index t (0 : Fin 3)) (hq : q.val = win1_6.index t (1 : Fin 3) * 256 + p.val) :
    AttnBody.tProb (iblk1 V c 0 t) (iblk1 V c 1 t) (iblk1 V c 3 t) p k
      = probG (V c main_v16) (V c main_v17) (V c main_v19) b q k := by
  obtain ⟨⟨a00, a01, a02⟩, ⟨a10, a11, a12⟩, ⟨a20, a21, a22⟩, ⟨a30, a31⟩, ⟨a40, a41⟩, ⟨a50, a51⟩, ⟨a70, a71, a72⟩, ⟨a60, a61, a62⟩⟩ := idx_facts t
  have hp : p.val < 256 := p.isLt
  unfold AttnBody.tProb probG
  refine congrArg (fun f => Spec.softmax f k) (funext fun k' => ?_)
  unfold AttnBody.tScore Spec.kscore act
  refine congrArg₂ (· + ·) (Finset.sum_congr rfl fun d _ => congrArg₂ (· * ·) (congrArg (· * _) ?_) ?_) ?_
  · show V c main_v16 (((cfg1.win 0).blk t).view.emb (ix3 (0 : Fin 1) p d)) = V c main_v16 (ix3 b q d)
    refine congrArg _ (funext fun a => Fin.ext ?_)
    match a with
    | ⟨0, _⟩ => show win1_0.index t (0 : Fin 3) * 1 + 1 * 0 = b.val; omega
    | ⟨1, _⟩ => show win1_0.index t (1 : Fin 3) * 256 + 1 * p.val = q.val; omega
    | ⟨2, _⟩ => show win1_0.index t (2 : Fin 3) * 1024 + 1 * d.val = d.val; omega
  · show V c main_v17 (((cfg1.win 1).blk t).view.emb (ix3 (0 : Fin 1) k' d)) = V c main_v17 (ix3 b k' d)
    refine congrArg _ (funext fun a => Fin.ext ?_)
    match a with
    | ⟨0, _⟩ => show win1_1.index t (0 : Fin 3) * 1 + 1 * 0 = b.val; omega
    | ⟨1, _⟩ => show win1_1.index t (1 : Fin 3) * 2048 + 1 * k'.val = k'.val; omega
    | ⟨2, _⟩ => show win1_1.index t (2 : Fin 3) * 1024 + 1 * d.val = d.val; omega
  · show V c main_v19 (((cfg1.win 3).blk t).view.emb (ix2 p k')) = V c main_v19 (ix2 q k')
    refine congrArg _ (funext fun a => Fin.ext ?_)
    match a with
    | ⟨0, _⟩ => show win1_3.index t (0 : Fin 2) * 256 + 1 * p.val = q.val; omega
    | ⟨1, _⟩ => show win1_3.index t (1 : Fin 2) * 2048 + 1 * k'.val = k'.val; omega

/-! ## Output window 7: the attention weights -/

theorem flushed7 (c : Dev nD) (t : Fin cfg1.N) :
    (dat1 V c).flushed 7 t = ((cfg1.win 7).blk t).view.read (Elt Ideal)
      (fun i => probG (V c main_v16) (V c main_v17) (V c main_v19) (i 0) (i 1) (i 2)) := by
  show (cfg1.win 7).cut (grid1.coords t) ((dat1 V c).after 7 t) = _
  rw [after1_7]
  unfold out1_7
  rw [View.canon_unit_zero hz3]
  simp only [View.ld_unit_zero (S := S1x256x1024) hz3, View.ld_unit_zero (S := S1x2048x1024) hz3, View.ld_unit_zero (S := S256x2048) hz2]
  obtain ⟨⟨a00, a01, a02⟩, ⟨a10, a11, a12⟩, ⟨a20, a21, a22⟩, ⟨a30, a31⟩, ⟨a40, a41⟩, ⟨a50, a51⟩, ⟨a70, a71, a72⟩, ⟨a60, a61, a62⟩⟩ := idx_facts t
  funext j
  obtain ⟨u, p, k, rfl⟩ : ∃ (u : Fin 1) (p : Fin 256) (k : Fin 2048), j = ix3 u p k := ⟨j 0, j 1, j 2, eq_ix3 j⟩
  have hu : u.val = 0 := by omega
  show k1_pay3 (iblk1 V c 0 t) (iblk1 V c 1 t) (iblk1 V c 3 t) (ix3 u p k) = probG (V c main_v16) (V c main_v17) (V c main_v19)
      ((((cfg1.win 7).blk t).view.emb (ix3 u p k)) 0) ((((cfg1.win 7).blk t).view.emb (ix3 u p k)) 1) ((((cfg1.win 7).blk t).view.emb (ix3 u p k)) 2)
  refine (AttnBody.pay3_apply (iblk1 V c 0 t) (iblk1 V c 1 t) (iblk1 V c 3 t) u p k).trans ?_
  have e2 : ((((cfg1.win 7).blk t).view.emb (ix3 u p k)) 2 : Fin 2048) = k :=
    Fin.ext (by show win1_7.index t (2 : Fin 3) * 2048 + 1 * k.val = k.val; omega)
  refine (tProb_blk V c t p k ((((cfg1.win 7).blk t).view.emb (ix3 u p k)) 0) ((((cfg1.win 7).blk t).view.emb (ix3 u p k)) 1)
    (by show win1_7.index t (0 : Fin 3) * 1 + 1 * u.val = _; omega)
    (by show win1_7.index t (1 : Fin 3) * 256 + 1 * p.val = _; omega)).trans ?_
  exact congrArg (probG (V c main_v16) (V c main_v17) (V c main_v19) _ _) e2.symm

theorem mem_blk7 (t : Fin cfg1.N) (i : S8x2048x2048.Idx) :
    i ∈ ((cfg1.win 7).blk t).view.set ↔ ∀ a : Fin 3, win1_7.index t a * S1x256x2048.size a ≤ (i a).val ∧ (i a).val < win1_7.index t a * S1x256x2048.size a + S1x256x2048.size a := by
  show i ∈ ((View.whole main_v20_1).slice (win1_7.rect t)).set ↔ _
  rw [View.set_slice_whole, Rect.mem_set_unit]
  exact Iff.rfl

theorem cover7 (i : S8x2048x2048.Idx) :
    ∃ t : Fin cfg1.N, (cfg1.win 7).flush t = true ∧ i ∈ ((cfg1.win 7).blk t).view.set := by
  have hi0 : (i 0).val < 8 := (i 0).isLt
  have hi1 : (i 1).val < 2048 := (i 1).isLt
  have hi2 : (i 2).val < 2048 := (i 2).isLt
  obtain ⟨t, ht0, ht1⟩ := idx_onto ⟨(i 0).val, hi0⟩ ⟨(i 1).val / 256, by omega⟩
  have ht0' : win1_6.index t (0 : Fin 3) = (i 0).val := ht0
  have ht1' : win1_6.index t (1 : Fin 3) = (i 1).val / 256 := ht1
  obtain ⟨⟨a00, a01, a02⟩, ⟨a10, a11, a12⟩, ⟨a20, a21, a22⟩, ⟨a30, a31⟩, ⟨a40, a41⟩, ⟨a50, a51⟩, ⟨a70, a71, a72⟩, ⟨a60, a61, a62⟩⟩ := idx_facts t
  refine ⟨t, flush1_7 t, ?_⟩
  rw [mem_blk7]
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 256 ≤ (i 1).val ∧ (i 1).val < win1_7.index t (1 : Fin 3) * 256 + 256; omega
  | ⟨2, _⟩ => show win1_7.index t (2 : Fin 3) * 2048 ≤ (i 2).val ∧ (i 2).val < win1_7.index t (2 : Fin 3) * 2048 + 2048; omega

/-- THE ATTENTION-WEIGHTS ARRAY after the region. -/
theorem final7 (c : Dev nD) : (dat1 V c).arrAt 7 cfg1.N
    = (fun i => probG (V c main_v16) (V c main_v17) (V c main_v19) (i 0) (i 1) (i 2)) :=
  (dat1 V c).arrAt_eq_of_cover 7 _ (fun t _ => flushed7 V c t) cover7

/-! ## Output window 6: the projected context -/

theorem flushed6 (c : Dev nD) (t : Fin cfg1.N) :
    (dat1 V c).flushed 6 t = ((cfg1.win 6).blk t).view.read (Elt Ideal)
      (fun i => outG (V c main_v16) (V c main_v17) (V c main_v18) (V c main_v19) (V c main_v7) (V c main_v11) (i 0) (i 1) (i 2)) := by
  show (cfg1.win 6).cut (grid1.coords t) ((dat1 V c).after 6 t) = _
  rw [after1_6]
  unfold out1_6
  rw [View.canon_unit_zero hz3]
  simp only [View.ld_unit_zero (S := S1x256x1024) hz3, View.ld_unit_zero (S := S1x2048x1024) hz3, View.ld_unit_zero (S := S256x2048) hz2,
    View.ld_unit_zero (S := S1024x1024) hz2, View.ld_unit_zero (S := S1x1024) hz2]
  obtain ⟨⟨a00, a01, a02⟩, ⟨a10, a11, a12⟩, ⟨a20, a21, a22⟩, ⟨a30, a31⟩, ⟨a40, a41⟩, ⟨a50, a51⟩, ⟨a70, a71, a72⟩, ⟨a60, a61, a62⟩⟩ := idx_facts t
  funext j
  obtain ⟨u, p, e, rfl⟩ : ∃ (u : Fin 1) (p : Fin 256) (e : Fin 1024), j = ix3 u p e := ⟨j 0, j 1, j 2, eq_ix3 j⟩
  have hu : u.val = 0 := by omega
  show k1_pay1 (k1_pay4 (iblk1 V c 0 t) (iblk1 V c 1 t) (iblk1 V c 2 t) (iblk1 V c 3 t) (iblk1 V c 4 t)) (iblk1 V c 5 t) (ix3 u p e)
    = outG (V c main_v16) (V c main_v17) (V c main_v18) (V c main_v19) (V c main_v7) (V c main_v11)
      ((((cfg1.win 6).blk t).view.emb (ix3 u p e)) 0) ((((cfg1.win 6).blk t).view.emb (ix3 u p e)) 1) ((((cfg1.win 6).blk t).view.emb (ix3 u p e)) 2)
  refine (AttnBody.pay1_apply (iblk1 V c 0 t) (iblk1 V c 1 t) (iblk1 V c 2 t) (iblk1 V c 3 t) (iblk1 V c 4 t) (iblk1 V c 5 t) u p e).trans ?_
  unfold AttnBody.tOut outG
  have hb : ((((cfg1.win 6).blk t).view.emb (ix3 u p e)) 0).val = win1_6.index t (0 : Fin 3) := by
    show win1_6.index t (0 : Fin 3) * 1 + 1 * u.val = _; omega
  have hq : ((((cfg1.win 6).blk t).view.emb (ix3 u p e)) 1).val = win1_6.index t (1 : Fin 3) * 256 + p.val := by
    show win1_6.index t (1 : Fin 3) * 256 + 1 * p.val = _; omega
  have he : ((((cfg1.win 6).blk t).view.emb (ix3 u p e)) 2).val = e.val := by
    show win1_6.index t (2 : Fin 3) * 1024 + 1 * e.val = _; omega
  refine congrArg₂ (· + ·) (Finset.sum_congr rfl fun d _ => congrArg₂ (· * ·)
    (Finset.sum_congr rfl fun k _ => congrArg₂ (· * ·) (tProb_blk V c t p k _ _ hb hq) ?_) ?_) ?_
  · show V c main_v18 (((cfg1.win 2).blk t).view.emb (ix3 (0 : Fin 1) k d)) = V c main_v18 (ix3 _ k d)
    refine congrArg _ (funext fun a => Fin.ext ?_)
    match a with
    | ⟨0, _⟩ => show win1_2.index t (0 : Fin 3) * 1 + 1 * 0 = win1_6.index t (0 : Fin 3) * 1 + 1 * u.val; omega
    | ⟨1, _⟩ => show win1_2.index t (1 : Fin 3) * 2048 + 1 * k.val = k.val; omega
    | ⟨2, _⟩ => show win1_2.index t (2 : Fin 3) * 1024 + 1 * d.val = d.val; omega
  · show V c main_v7 (((cfg1.win 4).blk t).view.emb (ix2 d e)) = V c main_v7 (ix2 d _)
    refine congrArg _ (funext fun a => Fin.ext ?_)
    match a with
    | ⟨0, _⟩ => show win1_4.index t (0 : Fin 2) * 1024 + 1 * d.val = d.val; omega
    | ⟨1, _⟩ => show win1_4.index t (1 : Fin 2) * 1024 + 1 * e.val = win1_6.index t (2 : Fin 3) * 1024 + 1 * e.val; omega
  · show V c main_v11 (((cfg1.win 5).blk t).view.emb (ix2 (0 : Fin 1) e)) = V c main_v11 (ix2 (0 : Fin 1) _)
    refine congrArg _ (funext fun a => Fin.ext ?_)
    match a with
    | ⟨0, _⟩ => show win1_5.index t (0 : Fin 2) * 1 + 1 * 0 = 0; omega
    | ⟨1, _⟩ => show win1_5.index t (1 : Fin 2) * 1024 + 1 * e.val = win1_6.index t (2 : Fin 3) * 1024 + 1 * e.val; omega

theorem mem_blk6 (t : Fin cfg1.N) (i : S8x2048x1024.Idx) :
    i ∈ ((cfg1.win 6).blk t).view.set ↔ ∀ a : Fin 3, win1_6.index t a * S1x256x1024.size a ≤ (i a).val ∧ (i a).val < win1_6.index t a * S1x256x1024.size a + S1x256x1024.size a := by
  show i ∈ ((View.whole main_v20_0).slice (win1_6.rect t)).set ↔ _
  rw [View.set_slice_whole, Rect.mem_set_unit]
  exact Iff.rfl

theorem cover6 (i : S8x2048x1024.Idx) :
    ∃ t : Fin cfg1.N, (cfg1.win 6).flush t = true ∧ i ∈ ((cfg1.win 6).blk t).view.set := by
  have hi0 : (i 0).val < 8 := (i 0).isLt
  have hi1 : (i 1).val < 2048 := (i 1).isLt
  have hi2 : (i 2).val < 1024 := (i 2).isLt
  obtain ⟨t, ht0, ht1⟩ := idx_onto ⟨(i 0).val, hi0⟩ ⟨(i 1).val / 256, by omega⟩
  have ht0' : win1_6.index t (0 : Fin 3) = (i 0).val := ht0
  have ht1' : win1_6.index t (1 : Fin 3) = (i 1).val / 256 := ht1
  obtain ⟨⟨a00, a01, a02⟩, ⟨a10, a11, a12⟩, ⟨a20, a21, a22⟩, ⟨a30, a31⟩, ⟨a40, a41⟩, ⟨a50, a51⟩, ⟨a70, a71, a72⟩, ⟨a60, a61, a62⟩⟩ := idx_facts t
  refine ⟨t, flush1_6 t, ?_⟩
  rw [mem_blk6]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 256 ≤ (i 1).val ∧ (i 1).val < win1_6.index t (1 : Fin 3) * 256 + 256; omega
  | ⟨2, _⟩ => show win1_6.index t (2 : Fin 3) * 1024 ≤ (i 2).val ∧ (i 2).val < win1_6.index t (2 : Fin 3) * 1024 + 1024; omega

/-- THE OUTPUT ARRAY after the region. -/
theorem final6 (c : Dev nD) : (dat1 V c).arrAt 6 cfg1.N
    = (fun i => outG (V c main_v16) (V c main_v17) (V c main_v18) (V c main_v19) (V c main_v7) (V c main_v11) (i 0) (i 1) (i 2)) :=
  (dat1 V c).arrAt_eq_of_cover 6 _ (fun t _ => flushed6 V c t) cover6

end Cert.Attn.AttnArray

end
-- ==== Proof.ProjBody.lean ====
/-
  The projection kernel's body at an entry.

  Each of its three stores writes `x · w + bias` of one block of 512 rows: entry `(p, q)` is the sum over the
  1024 contracted coordinates `k` of `x (p, k) · w (k, q)`, plus the one bias row at `q`. The changes of float
  format around the matrix product are identities on the extended reals and the product accumulates into zero.
-/
import proofs.«155491_j8237747273925_2_alg».proof.Proof.Gen.KernelIdeal.Skeleton
import proofs.«155491_j8237747273925_2_alg».proof.Proof.LibContractPlain
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Attn.ProjBody

open Cert.KernelIdeal Cert.KernelIdeal.Gen Idealize.ShloMosaic Idealize.ShloMosaic.ValueIdx

/-- One block of rows projected: `x · w + bias` at row `p`, column `q`. -/
def rowProj (x : FVec Ideal S512x1024 .f32) (w : FVec Ideal S1024x1024 .bf16) (b : FVec Ideal S1x1024 .f32)
    (p : Fin 512) (q : Fin 1024) : EReal :=
  (∑ k : Fin 1024, x (ix2 p k) * w (ix2 k q)) + b (ix2 (0 : Fin 1) q)

/-- The matrix product of a block with a weight matrix, a bias row added: the common shape of the three stores. -/
theorem proj_apply (x : FVec Ideal S512x1024 .f32) (w : FVec Ideal S1024x1024 .bf16) (b : FVec Ideal S1x1024 .f32)
    (p : Fin 512) (q : Fin 1024) :
    (matmul dot_S512x1024_S1024x1024_S512x1024_1_0_0_1_n_n none (truncf .bf16 x bitsLt_bf16_f32) w
        (constant (F := Ideal) S512x1024 .f32 0x00000000#32)) (ix2 p q)
      + (broadcastTo S512x1024 b broadcasts_S1x1024_S512x1024) (ix2 p q) = rowProj x w b p q := by
  unfold rowProj
  refine congrArg₂ (· + ·) ?_ ?_
  · refine (Cert.LibContractPlain.matmulPlain_zero_apply 512 1024 1024 _ none _ _ p q).trans ?_
    rfl
  · exact broadcastTo_1b_ab_apply b _ p q

/-- The first store (the query projection). -/
theorem pay2_apply (x0 : FVec Ideal S512x1024 .f32) (x3 : FVec Ideal S1024x1024 .bf16) (x6 : FVec Ideal S1x1024 .f32)
    (p : Fin 512) (q : Fin 1024) :
    k0_pay2 (F := Ideal) x0 x3 x6 (ix2 p q) = rowProj x0 x3 x6 p q := by
  unfold k0_pay2
  simp only [shapeCast_self]
  exact proj_apply x0 x3 x6 p q

/-- The second store (the key projection). -/
theorem pay3_apply (x0 : FVec Ideal S512x1024 .f32) (x3 : FVec Ideal S1024x1024 .bf16) (x6 : FVec Ideal S1x1024 .f32)
    (p : Fin 512) (q : Fin 1024) :
    k0_pay3 (F := Ideal) x0 x3 x6 (ix2 p q) = rowProj x0 x3 x6 p q := by
  unfold k0_pay3
  simp only [shapeCast_self]
  exact proj_apply x0 x3 x6 p q

/-- The third store (the value projection), whose product and bias row are carried across the body's cut. -/
theorem pay1_apply (x0 : FVec Ideal S512x1024 .f32) (x3 : FVec Ideal S1024x1024 .bf16) (x6 : FVec Ideal S1x1024 .f32)
    (p : Fin 512) (q : Fin 1024) :
    k0_pay1 (F := Ideal) (k0_pay4 x0 x3) (k0_pay5 x6) (ix2 p q) = rowProj x0 x3 x6 p q := by
  unfold k0_pay1 k0_pay4 k0_pay5
  simp only [shapeCast_self]
  exact proj_apply x0 x3 x6 p q

end Cert.Attn.ProjBody

end
-- ==== Proof.ProjArray.lean ====
/-
  The projection kernel's three output arrays as whole-array functions.

  Grid point `t` of 32 reads rows `512 t … 512 t + 511` of each activation matrix, the whole of each weight matrix
  and bias row, and writes the same rows of each output. So each output array, once every point has written its
  block back, holds at `(r, q)` the sum over `k` of the activation at `(r, k)` times the weight at `(k, q)`, plus
  the bias at `q`: the blocks are restrictions of that one function, and they tile the 16384 rows.
-/
import proofs.«155491_j8237747273925_2_alg».proof.Proof.Gen.KernelIdeal.Frame
import proofs.«155491_j8237747273925_2_alg».proof.Proof.ProjBody

set_option maxRecDepth 16384

noncomputable section

open scoped BigOperators

namespace Cert.Attn.ProjArray

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- A whole activation matrix projected: `x · w + bias` at row `r`, column `q`. -/
def projG (x : S16384x1024.Idx → EReal) (w : S1024x1024.Idx → EReal) (b : S1x1024.Idx → EReal)
    (r : Fin 16384) (q : Fin 1024) : EReal :=
  (∑ k : Fin 1024, x (ix2 r k) * w (ix2 k q)) + b (ix2 (0 : Fin 1) q)

theorem hz : (![0, 0] : Fin 2 → Nat) = fun _ => 0 := funext fun a => by fin_cases a <;> rfl

/-- The printed index maps over the grid: the activation and output windows sit at block row `t`, block column 0;
    the weights and biases at block `(0, 0)`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-! ## Output window 9 -/

/-- What point `t` writes back through window 9 is block `t` of the projected array. -/
theorem flushed9 (c : Dev nD) (t : Fin cfg0.N) :
    (dat0 V c).flushed 9 t = ((cfg0.win 9).blk t).view.read (Elt Ideal)
      (fun i => projG (V c main_v12) (V c main_v1) (V c main_v8) (i 0) (i 1)) := by
  show (cfg0.win 9).cut (grid0.coords t) ((dat0 V c).after 9 t) = _
  rw [after0_9]
  unfold out0_9
  rw [View.canon_unit_zero hz]
  simp only [View.ld_unit_zero (S := S512x1024) hz, View.ld_unit_zero (S := S1024x1024) hz, View.ld_unit_zero (S := S1x1024) hz]
  obtain ⟨⟨a00, a01⟩, ⟨a10, a11⟩, ⟨a20, a21⟩, ⟨a30, a31⟩, ⟨a40, a41⟩, ⟨a50, a51⟩, ⟨a60, a61⟩, ⟨a70, a71⟩, ⟨a80, a81⟩,
    ⟨a90, a91⟩, ⟨aA0, aA1⟩, ⟨aB0, aB1⟩⟩ := idx_facts t
  funext j
  obtain ⟨p, q, rfl⟩ : ∃ (p : Fin 512) (q : Fin 1024), j = ix2 p q := ⟨j 0, j 1, eq_ix2 j⟩
  show k0_pay2 (iblk0 V c 0 t) (iblk0 V c 3 t) (iblk0 V c 4 t) (ix2 p q) = projG (V c main_v12) (V c main_v1) (V c main_v8)
      ((((cfg0.win 9).blk t).view.emb (ix2 p q)) 0) ((((cfg0.win 9).blk t).view.emb (ix2 p q)) 1)
  refine (ProjBody.pay2_apply (iblk0 V c 0 t) (iblk0 V c 3 t) (iblk0 V c 4 t) p q).trans ?_
  unfold ProjBody.rowProj projG
  have hp : p.val < 512 := p.isLt
  have hq : q.val < 1024 := q.isLt
  refine congrArg₂ (· + ·) (Finset.sum_congr rfl fun k _ => congrArg₂ (· * ·) ?_ ?_) ?_
  · show V c main_v12 (((cfg0.win 0).blk t).view.emb (ix2 p k)) = V c main_v12 (ix2 _ k)
    refine congrArg _ (funext fun a => Fin.ext ?_)
    match a with
    | ⟨0, _⟩ => show win0_0.index t (0 : Fin 2) * 512 + 1 * p.val = win0_9.index t (0 : Fin 2) * 512 + 1 * p.val; omega
    | ⟨1, _⟩ => show win0_0.index t (1 : Fin 2) * 1024 + 1 * k.val = k.val; omega
  · show V c main_v1 (((cfg0.win 3).blk t).view.emb (ix2 k q)) = V c main_v1 (ix2 k _)
    refine congrArg _ (funext fun a => Fin.ext ?_)
    match a with
    | ⟨0, _⟩ => show win0_3.index t (0 : Fin 2) * 1024 + 1 * k.val = k.val; omega
    | ⟨1, _⟩ => show win0_3.index t (1 : Fin 2) * 1024 + 1 * q.val = win0_9.index t (1 : Fin 2) * 1024 + 1 * q.val; omega
  · show V c main_v8 (((cfg0.win 4).blk t).view.emb (ix2 (0 : Fin 1) q)) = V c main_v8 (ix2 (0 : Fin 1) _)
    refine congrArg _ (funext fun a => Fin.ext ?_)
    match a with
    | ⟨0, _⟩ => show win0_4.index t (0 : Fin 2) * 1 + 1 * 0 = 0; omega
    | ⟨1, _⟩ => show win0_4.index t (1 : Fin 2) * 1024 + 1 * q.val = win0_9.index t (1 : Fin 2) * 1024 + 1 * q.val; omega

/-- An index of the array is in point `t`'s block iff each coordinate is in the block's range on its axis. -/
theorem mem_blk9 (t : Fin cfg0.N) (i : S16384x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v15_0).slice (win0_9.rect t)).set ↔ _
  rw [View.set_slice_whole, Rect.mem_set_unit]
  exact Iff.rfl

/-- Every row is in the block of the point `row / 512`. -/
theorem cover9 (i : S16384x1024.Idx) :
    ∃ t : Fin cfg0.N, (cfg0.win 9).flush t = true ∧ i ∈ ((cfg0.win 9).blk t).view.set := by
  have hi0 : (i 0).val < 16384 := (i 0).isLt
  have hi1 : (i 1).val < 1024 := (i 1).isLt
  have hN : cfg0.N = 32 := N_0
  let t : Fin cfg0.N := ⟨(i 0).val / 512, by rw [hN]; omega⟩
  obtain ⟨⟨a00, a01⟩, ⟨a10, a11⟩, ⟨a20, a21⟩, ⟨a30, a31⟩, ⟨a40, a41⟩, ⟨a50, a51⟩, ⟨a60, a61⟩, ⟨a70, a71⟩, ⟨a80, a81⟩,
    ⟨a90, a91⟩, ⟨aA0, aA1⟩, ⟨aB0, aB1⟩⟩ := idx_facts t
  have ht : t.val = (i 0).val / 512 := rfl
  refine ⟨t, flush0_9 t, ?_⟩
  rw [mem_blk9]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 1024 ≤ (i 1).val ∧ (i 1).val < win0_9.index t (1 : Fin 2) * 1024 + 1024; omega

/-- THE ARRAY after the region: the projection of the activation matrix the region found. -/
theorem final9 (c : Dev nD) : (dat0 V c).arrAt 9 cfg0.N
    = (fun i => projG (V c main_v12) (V c main_v1) (V c main_v8) (i 0) (i 1)) :=
  (dat0 V c).arrAt_eq_of_cover 9 _ (fun t _ => flushed9 V c t) cover9

/-! ## Output window 10 -/

/-- What point `t` writes back through window 10 is block `t` of the projected array. -/
theorem flushed10 (c : Dev nD) (t : Fin cfg0.N) :
    (dat0 V c).flushed 10 t = ((cfg0.win 10).blk t).view.read (Elt Ideal)
      (fun i => projG (V c main_v13) (V c main_v3) (V c main_v9) (i 0) (i 1)) := by
  show (cfg0.win 10).cut (grid0.coords t) ((dat0 V c).after 10 t) = _
  rw [after0_10]
  unfold out0_10
  rw [View.canon_unit_zero hz]
  simp only [View.ld_unit_zero (S := S512x1024) hz, View.ld_unit_zero (S := S1024x1024) hz, View.ld_unit_zero (S := S1x1024) hz]
  obtain ⟨⟨a00, a01⟩, ⟨a10, a11⟩, ⟨a20, a21⟩, ⟨a30, a31⟩, ⟨a40, a41⟩, ⟨a50, a51⟩, ⟨a60, a61⟩, ⟨a70, a71⟩, ⟨a80, a81⟩,
    ⟨a90, a91⟩, ⟨aA0, aA1⟩, ⟨aB0, aB1⟩⟩ := idx_facts t
  funext j
  obtain ⟨p, q, rfl⟩ : ∃ (p : Fin 512) (q : Fin 1024), j = ix2 p q := ⟨j 0, j 1, eq_ix2 j⟩
  show k0_pay3 (iblk0 V c 1 t) (iblk0 V c 5 t) (iblk0 V c 6 t) (ix2 p q) = projG (V c main_v13) (V c main_v3) (V c main_v9)
      ((((cfg0.win 10).blk t).view.emb (ix2 p q)) 0) ((((cfg0.win 10).blk t).view.emb (ix2 p q)) 1)
  refine (ProjBody.pay3_apply (iblk0 V c 1 t) (iblk0 V c 5 t) (iblk0 V c 6 t) p q).trans ?_
  unfold ProjBody.rowProj projG
  have hp : p.val < 512 := p.isLt
  have hq : q.val < 1024 := q.isLt
  refine congrArg₂ (· + ·) (Finset.sum_congr rfl fun k _ => congrArg₂ (· * ·) ?_ ?_) ?_
  · show V c main_v13 (((cfg0.win 1).blk t).view.emb (ix2 p k)) = V c main_v13 (ix2 _ k)
    refine congrArg _ (funext fun a => Fin.ext ?_)
    match a with
    | ⟨0, _⟩ => show win0_1.index t (0 : Fin 2) * 512 + 1 * p.val = win0_10.index t (0 : Fin 2) * 512 + 1 * p.val; omega
    | ⟨1, _⟩ => show win0_1.index t (1 : Fin 2) * 1024 + 1 * k.val = k.val; omega
  · show V c main_v3 (((cfg0.win 5).blk t).view.emb (ix2 k q)) = V c main_v3 (ix2 k _)
    refine congrArg _ (funext fun a => Fin.ext ?_)
    match a with
    | ⟨0, _⟩ => show win0_5.index t (0 : Fin 2) * 1024 + 1 * k.val = k.val; omega
    | ⟨1, _⟩ => show win0_5.index t (1 : Fin 2) * 1024 + 1 * q.val = win0_10.index t (1 : Fin 2) * 1024 + 1 * q.val; omega
  · show V c main_v9 (((cfg0.win 6).blk t).view.emb (ix2 (0 : Fin 1) q)) = V c main_v9 (ix2 (0 : Fin 1) _)
    refine congrArg _ (funext fun a => Fin.ext ?_)
    match a with
    | ⟨0, _⟩ => show win0_6.index t (0 : Fin 2) * 1 + 1 * 0 = 0; omega
    | ⟨1, _⟩ => show win0_6.index t (1 : Fin 2) * 1024 + 1 * q.val = win0_10.index t (1 : Fin 2) * 1024 + 1 * q.val; omega

/-- An index of the array is in point `t`'s block iff each coordinate is in the block's range on its axis. -/
theorem mem_blk10 (t : Fin cfg0.N) (i : S16384x1024.Idx) :
    i ∈ ((cfg0.win 10).blk t).view.set ↔ ∀ a : Fin 2, win0_10.index t a * S512x1024.size a ≤ (i a).val ∧ (i a).val < win0_10.index t a * S512x1024.size a + S512x1024.size a := by
  show i ∈ ((View.whole main_v15_1).slice (win0_10.rect t)).set ↔ _
  rw [View.set_slice_whole, Rect.mem_set_unit]
  exact Iff.rfl

/-- Every row is in the block of the point `row / 512`. -/
theorem cover10 (i : S16384x1024.Idx) :
    ∃ t : Fin cfg0.N, (cfg0.win 10).flush t = true ∧ i ∈ ((cfg0.win 10).blk t).view.set := by
  have hi0 : (i 0).val < 16384 := (i 0).isLt
  have hi1 : (i 1).val < 1024 := (i 1).isLt
  have hN : cfg0.N = 32 := N_0
  let t : Fin cfg0.N := ⟨(i 0).val / 512, by rw [hN]; omega⟩
  obtain ⟨⟨a00, a01⟩, ⟨a10, a11⟩, ⟨a20, a21⟩, ⟨a30, a31⟩, ⟨a40, a41⟩, ⟨a50, a51⟩, ⟨a60, a61⟩, ⟨a70, a71⟩, ⟨a80, a81⟩,
    ⟨a90, a91⟩, ⟨aA0, aA1⟩, ⟨aB0, aB1⟩⟩ := idx_facts t
  have ht : t.val = (i 0).val / 512 := rfl
  refine ⟨t, flush0_10 t, ?_⟩
  rw [mem_blk10]
  intro a
  match a with
  | ⟨0, _⟩ => show win0_10.index t (0 : Fin 2) * 512 ≤ (i 0).val ∧ (i 0).val < win0_10.index t (0 : Fin 2) * 512 + 512; omega
  | ⟨1, _⟩ => show win0_10.index t (1 : Fin 2) * 1024 ≤ (i 1).val ∧ (i 1).val < win0_10.index t (1 : Fin 2) * 1024 + 1024; omega

/-- THE ARRAY after the region: the projection of the activation matrix the region found. -/
theorem final10 (c : Dev nD) : (dat0 V c).arrAt 10 cfg0.N
    = (fun i => projG (V c main_v13) (V c main_v3) (V c main_v9) (i 0) (i 1)) :=
  (dat0 V c).arrAt_eq_of_cover 10 _ (fun t _ => flushed10 V c t) cover10

/-! ## Output window 11 -/

/-- What point `t` writes back through window 11 is block `t` of the projected array. -/
theorem flushed11 (c : Dev nD) (t : Fin cfg0.N) :
    (dat0 V c).flushed 11 t = ((cfg0.win 11).blk t).view.read (Elt Ideal)
      (fun i => projG (V c main_v14) (V c main_v5) (V c main_v10) (i 0) (i 1)) := by
  show (cfg0.win 11).cut (grid0.coords t) ((dat0 V c).after 11 t) = _
  rw [after0_11]
  unfold out0_11
  rw [View.canon_unit_zero hz]
  simp only [View.ld_unit_zero (S := S512x1024) hz, View.ld_unit_zero (S := S1024x1024) hz, View.ld_unit_zero (S := S1x1024) hz]
  obtain ⟨⟨a00, a01⟩, ⟨a10, a11⟩, ⟨a20, a21⟩, ⟨a30, a31⟩, ⟨a40, a41⟩, ⟨a50, a51⟩, ⟨a60, a61⟩, ⟨a70, a71⟩, ⟨a80, a81⟩,
    ⟨a90, a91⟩, ⟨aA0, aA1⟩, ⟨aB0, aB1⟩⟩ := idx_facts t
  funext j
  obtain ⟨p, q, rfl⟩ : ∃ (p : Fin 512) (q : Fin 1024), j = ix2 p q := ⟨j 0, j 1, eq_ix2 j⟩
  show k0_pay1 (k0_pay4 (iblk0 V c 2 t) (iblk0 V c 7 t)) (k0_pay5 (iblk0 V c 8 t)) (ix2 p q) = projG (V c main_v14) (V c main_v5) (V c main_v10)
      ((((cfg0.win 11).blk t).view.emb (ix2 p q)) 0) ((((cfg0.win 11).blk t).view.emb (ix2 p q)) 1)
  refine (ProjBody.pay1_apply (iblk0 V c 2 t) (iblk0 V c 7 t) (iblk0 V c 8 t) p q).trans ?_
  unfold ProjBody.rowProj projG
  have hp : p.val < 512 := p.isLt
  have hq : q.val < 1024 := q.isLt
  refine congrArg₂ (· + ·) (Finset.sum_congr rfl fun k _ => congrArg₂ (· * ·) ?_ ?_) ?_
  · show V c main_v14 (((cfg0.win 2).blk t).view.emb (ix2 p k)) = V c main_v14 (ix2 _ k)
    refine congrArg _ (funext fun a => Fin.ext ?_)
    match a with
    | ⟨0, _⟩ => show win0_2.index t (0 : Fin 2) * 512 + 1 * p.val = win0_11.index t (0 : Fin 2) * 512 + 1 * p.val; omega
    | ⟨1, _⟩ => show win0_2.index t (1 : Fin 2) * 1024 + 1 * k.val = k.val; omega
  · show V c main_v5 (((cfg0.win 7).blk t).view.emb (ix2 k q)) = V c main_v5 (ix2 k _)
    refine congrArg _ (funext fun a => Fin.ext ?_)
    match a with
    | ⟨0, _⟩ => show win0_7.index t (0 : Fin 2) * 1024 + 1 * k.val = k.val; omega
    | ⟨1, _⟩ => show win0_7.index t (1 : Fin 2) * 1024 + 1 * q.val = win0_11.index t (1 : Fin 2) * 1024 + 1 * q.val; omega
  · show V c main_v10 (((cfg0.win 8).blk t).view.emb (ix2 (0 : Fin 1) q)) = V c main_v10 (ix2 (0 : Fin 1) _)
    refine congrArg _ (funext fun a => Fin.ext ?_)
    match a with
    | ⟨0, _⟩ => show win0_8.index t (0 : Fin 2) * 1 + 1 * 0 = 0; omega
    | ⟨1, _⟩ => show win0_8.index t (1 : Fin 2) * 1024 + 1 * q.val = win0_11.index t (1 : Fin 2) * 1024 + 1 * q.val; omega

/-- An index of the array is in point `t`'s block iff each coordinate is in the block's range on its axis. -/
theorem mem_blk11 (t : Fin cfg0.N) (i : S16384x1024.Idx) :
    i ∈ ((cfg0.win 11).blk t).view.set ↔ ∀ a : Fin 2, win0_11.index t a * S512x1024.size a ≤ (i a).val ∧ (i a).val < win0_11.index t a * S512x1024.size a + S512x1024.size a := by
  show i ∈ ((View.whole main_v15_2).slice (win0_11.rect t)).set ↔ _
  rw [View.set_slice_whole, Rect.mem_set_unit]
  exact Iff.rfl

/-- Every row is in the block of the point `row / 512`. -/
theorem cover11 (i : S16384x1024.Idx) :
    ∃ t : Fin cfg0.N, (cfg0.win 11).flush t = true ∧ i ∈ ((cfg0.win 11).blk t).view.set := by
  have hi0 : (i 0).val < 16384 := (i 0).isLt
  have hi1 : (i 1).val < 1024 := (i 1).isLt
  have hN : cfg0.N = 32 := N_0
  let t : Fin cfg0.N := ⟨(i 0).val / 512, by rw [hN]; omega⟩
  obtain ⟨⟨a00, a01⟩, ⟨a10, a11⟩, ⟨a20, a21⟩, ⟨a30, a31⟩, ⟨a40, a41⟩, ⟨a50, a51⟩, ⟨a60, a61⟩, ⟨a70, a71⟩, ⟨a80, a81⟩,
    ⟨a90, a91⟩, ⟨aA0, aA1⟩, ⟨aB0, aB1⟩⟩ := idx_facts t
  have ht : t.val = (i 0).val / 512 := rfl
  refine ⟨t, flush0_11 t, ?_⟩
  rw [mem_blk11]
  intro a
  match a with
  | ⟨0, _⟩ => show win0_11.index t (0 : Fin 2) * 512 ≤ (i 0).val ∧ (i 0).val < win0_11.index t (0 : Fin 2) * 512 + 512; omega
  | ⟨1, _⟩ => show win0_11.index t (1 : Fin 2) * 1024 ≤ (i 1).val ∧ (i 1).val < win0_11.index t (1 : Fin 2) * 1024 + 1024; omega

/-- THE ARRAY after the region: the projection of the activation matrix the region found. -/
theorem final11 (c : Dev nD) : (dat0 V c).arrAt 11 cfg0.N
    = (fun i => projG (V c main_v14) (V c main_v5) (V c main_v10) (i 0) (i 1)) :=
  (dat0 V c).arrAt_eq_of_cover 11 _ (fun t _ => flushed11 V c t) cover11

end Cert.Attn.ProjArray

end
-- ==== Proof.LibRowGroups.lean ====
/-
  Arrays whose rows are grouped, and broadcasts along leading unit axes, each read at an index and generic in the
  sizes.

  * A `[1, b, c]` array broadcast to `[a, b, c]` reads the operand at `(0, g, j)`; a `[1, 1, c]` array broadcast
    to `[a, b, c]` reads it at `(0, 0, j)`: the leading axes are the repeated ones.
  * An `[a, b, c]` array whose two leading axes are merged into the rows of an `[n, c]` matrix reads, at row
    `p * b + q`, the array at `(p, q, ·)`; the same regrouping undone reads the matrix at row `p * b + q`.
  * An `[a, n, c]` array whose middle axis is split as `[a, b, d, c]` reads, at `(i, p, q, j)`, the array at
    `(i, p * d + q, j)`.
-/
import Idealize.ShloMosaic.Lib.ValueIdx
import Idealize.ShloMosaic.Lib.Pipeline.Value

noncomputable section

namespace Cert.LibRowGroups

open Idealize.ShloMosaic Idealize.ShloMosaic.ValueIdx

variable {α : Type}

/-- A `[1, b, c]` array broadcast to `[a, b, c]` reads, at `(i, g, j)`, the operand at `(0, g, j)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (g : Fin b) (j : Fin c) :
    broadcastTo ⟨3, ![a, b, c]⟩ v h (ix3 i g j) = v (ix3 (0 : Fin 1) g j) := by
  refine broadcastTo_apply v h (ix3 i g j) (ix3 (0 : Fin 1) g j) fun ax => ?_
  match ax with
  | ⟨0, _⟩ => rfl
  | ⟨1, _⟩ =>
    show g.val = if b = 1 then 0 else g.val
    split
    · have := g.isLt; omega
    · rfl
  | ⟨2, _⟩ =>
    show j.val = if c = 1 then 0 else j.val
    split
    · have := j.isLt; omega
    · rfl

/-- A `[1, 1, c]` array broadcast to `[a, b, c]` reads, at `(i, g, j)`, the operand at `(0, 0, j)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (g : Fin b) (j : Fin c) :
    broadcastTo ⟨3, ![a, b, c]⟩ v h (ix3 i g j) = v (ix3 (0 : Fin 1) (0 : Fin 1) j) := by
  refine broadcastTo_apply v h (ix3 i g j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

/-- An `[a, b, c]` array with its two leading axes merged into the rows of an `[n, c]` matrix reads, at row
    `p * b + q` and column `j`, the array at `(p, q, j)`. -/
theorem shapeCast_abc_nc_apply {a b c n : ℕ} (x : (⟨3, ![a, b, c]⟩ : Shape).Idx → α)
    (h : (⟨3, ![a, b, c]⟩ : Shape).ShapeCasts ⟨2, ![n, c]⟩) (r : Fin n) (j : Fin c)
    (p : Fin a) (q : Fin b) (hr : r.val = p.val * b + q.val) :
    shapeCast ⟨2, ![n, c]⟩ x h (ix2 r j) = x (ix3 p q j) :=
  shapeCast_apply x h _ _ (by
    rw [Shape.rowMajor_val_three, Shape.rowMajor_val_two]
    show (p.val * b + q.val) * c + j.val = r.val * c + j.val
    rw [hr])

/-- An `[n, c]` matrix with its rows regrouped as `[a, b, c]` reads, at `(p, q, j)`, the matrix at row
    `p * b + q` and column `j`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (j : Fin c)
    (r : Fin n) (hr : r.val = p.val * b + q.val) :
    shapeCast ⟨3, ![a, b, c]⟩ x h (ix3 p q j) = x (ix2 r j) :=
  shapeCast_apply x h _ _ (by
    rw [Shape.rowMajor_val_three, Shape.rowMajor_val_two]
    show r.val * c + j.val = (p.val * b + q.val) * c + j.val
    rw [hr])

/-- An `[a, n, c]` array with its middle axis split as `[a, b, d, c]` (`n = b * d`) reads, at `(i, p, q, j)`, the
    array at `(i, p * d + q, j)`. -/
theorem shapeCast_anc_abdc_apply {a b d c n : ℕ} (x : (⟨3, ![a, n, c]⟩ : Shape).Idx → α)
    (h : (⟨3, ![a, n, c]⟩ : Shape).ShapeCasts ⟨4, ![a, b, d, c]⟩) (i : Fin a) (p : Fin b) (q : Fin d) (j : Fin c)
    (r : Fin n) (hn : n = b * d) (hr : r.val = p.val * d + q.val) :
    shapeCast ⟨4, ![a, b, d, c]⟩ x h (ix4 i p q j) = x (ix3 i r j) :=
  shapeCast_apply x h _ _ (by
    rw [Shape.rowMajor_val_four, Shape.rowMajor_val_three]
    show (i.val * n + r.val) * c + j.val = ((i.val * b + p.val) * d + q.val) * c + j.val
    rw [hr, hn, Nat.add_mul (i.val * b) p.val d, Nat.mul_assoc, Nat.add_assoc])

end Cert.LibRowGroups

end
-- ==== Proof.HostLayers.lean ====
/-
  What each kernel finds in its operand buffers, as functions of the launch memory.

  Before the projection kernel the host flattens each `[8, 2048, 1024]` activation to `[16384, 1024]` (row
  `2048 b + s` is position `s` of batch `b`), transposes each weight matrix and views each bias as one row. So the
  projection kernel's output row `2048 b + s`, column `e` is `∑ d, x (b, s, d) · w (e, d) + bias e`: the linear layer
  of the specification. Between the kernels the host regroups those rows as `[8, 2048, 1024]` again and changes the
  positional bias's format (an identity on the extended reals, as is the weights' change of format); the output weights, transposed, and the output bias
  row are still what the first stretch of host operations wrote.
-/
import proofs.«155491_j8237747273925_2_alg».proof.Proof.Gen.KernelIdeal.Frame
import proofs.«155491_j8237747273925_2_alg».proof.Proof.ProjArray
import proofs.«155491_j8237747273925_2_alg».proof.Proof.Spec
import proofs.«155491_j8237747273925_2_alg».proof.Proof.LibRowGroups
import Idealize.ShloMosaic.Lib.StableHlo.Run
import Idealize.ShloMosaic.Lib.ValueLayout

set_option maxRecDepth 16384

noncomputable section

open scoped BigOperators

namespace Cert.Attn.HostLayers

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-! ## The argument arrays as launched -/
abbrev a0 (c : Dev nD) : S8x2048x1024.Idx → EReal := m ((c : Thread nD τ).loc main_arg0)
abbrev a1 (c : Dev nD) : S8x2048x1024.Idx → EReal := m ((c : Thread nD τ).loc main_arg1)
abbrev a2 (c : Dev nD) : S8x2048x1024.Idx → EReal := m ((c : Thread nD τ).loc main_arg2)
abbrev a3 (c : Dev nD) : S1024x1024.Idx → EReal := m ((c : Thread nD τ).loc main_arg3)
abbrev a4 (c : Dev nD) : S1024.Idx → EReal := m ((c : Thread nD τ).loc main_arg4)
abbrev a5 (c : Dev nD) : S1024x1024.Idx → EReal := m ((c : Thread nD τ).loc main_arg5)
abbrev a6 (c : Dev nD) : S1024.Idx → EReal := m ((c : Thread nD τ).loc main_arg6)
abbrev a7 (c : Dev nD) : S1024x1024.Idx → EReal := m ((c : Thread nD τ).loc main_arg7)
abbrev a8 (c : Dev nD) : S1024.Idx → EReal := m ((c : Thread nD τ).loc main_arg8)
abbrev a9 (c : Dev nD) : S1024x1024.Idx → EReal := m ((c : Thread nD τ).loc main_arg9)
abbrev a10 (c : Dev nD) : S1024.Idx → EReal := m ((c : Thread nD τ).loc main_arg10)
abbrev a11 (c : Dev nD) : S2048x2048.Idx → EReal := m ((c : Thread nD τ).loc main_arg11)

/-! ## The projection kernel's operands: the first stretch of host operations -/

theorem entry0_v12 (c : Dev nD) : (V1 m ρ c main_v12 : S16384x1024.Idx → EReal)
    = shapeCast S16384x1024 (a0 m c) shapeCasts_S8x2048x1024_S16384x1024 := by
  show StableHlo.after hostOps0 (W0 m ρ c) (Proc.devRef .tc main_v12) = _
  after_results
  try (funext i; rfl)

theorem entry0_v13 (c : Dev nD) : (V1 m ρ c main_v13 : S16384x1024.Idx → EReal)
    = shapeCast S16384x1024 (a1 m c) shapeCasts_S8x2048x1024_S16384x1024 := by
  show StableHlo.after hostOps0 (W0 m ρ c) (Proc.devRef .tc main_v13) = _
  after_results
  try (funext i; rfl)

theorem entry0_v14 (c : Dev nD) : (V1 m ρ c main_v14 : S16384x1024.Idx → EReal)
    = shapeCast S16384x1024 (a2 m c) shapeCasts_S8x2048x1024_S16384x1024 := by
  show StableHlo.after hostOps0 (W0 m ρ c) (Proc.devRef .tc main_v14) = _
  after_results
  try (funext i; rfl)

theorem entry0_v1 (c : Dev nD) : (V1 m ρ c main_v1 : S1024x1024.Idx → EReal)
    = transpose S1024x1024 [1, 0] (a3 m c) transposes_S1024x1024_S1024x1024_1_0 := by
  show StableHlo.after hostOps0 (W0 m ρ c) (Proc.devRef .tc main_v1) = _
  after_results
  try (funext i; rfl)

theorem entry0_v3 (c : Dev nD) : (V1 m ρ c main_v3 : S1024x1024.Idx → EReal)
    = transpose S1024x1024 [1, 0] (a5 m c) transposes_S1024x1024_S1024x1024_1_0 := by
  show StableHlo.after hostOps0 (W0 m ρ c) (Proc.devRef .tc main_v3) = _
  after_results
  try (funext i; rfl)

theorem entry0_v5 (c : Dev nD) : (V1 m ρ c main_v5 : S1024x1024.Idx → EReal)
    = transpose S1024x1024 [1, 0] (a7 m c) transposes_S1024x1024_S1024x1024_1_0 := by
  show StableHlo.after hostOps0 (W0 m ρ c) (Proc.devRef .tc main_v5) = _
  after_results
  try (funext i; rfl)

theorem entry0_v7 (c : Dev nD) : (V1 m ρ c main_v7 : S1024x1024.Idx → EReal)
    = transpose S1024x1024 [1, 0] (a9 m c) transposes_S1024x1024_S1024x1024_1_0 := by
  show StableHlo.after hostOps0 (W0 m ρ c) (Proc.devRef .tc main_v7) = _
  after_results
  try (funext i; rfl)

theorem entry0_v8 (c : Dev nD) : (V1 m ρ c main_v8 : S1x1024.Idx → EReal)
    = shapeCast S1x1024 (a4 m c) shapeCasts_S1024_S1x1024 := by
  show StableHlo.after hostOps0 (W0 m ρ c) (Proc.devRef .tc main_v8) = _
  after_results
  try (funext i; rfl)

theorem entry0_v9 (c : Dev nD) : (V1 m ρ c main_v9 : S1x1024.Idx → EReal)
    = shapeCast S1x1024 (a6 m c) shapeCasts_S1024_S1x1024 := by
  show StableHlo.after hostOps0 (W0 m ρ c) (Proc.devRef .tc main_v9) = _
  after_results
  try (funext i; rfl)

theorem entry0_v10 (c : Dev nD) : (V1 m ρ c main_v10 : S1x1024.Idx → EReal)
    = shapeCast S1x1024 (a8 m c) shapeCasts_S1024_S1x1024 := by
  show StableHlo.after hostOps0 (W0 m ρ c) (Proc.devRef .tc main_v10) = _
  after_results
  try (funext i; rfl)

theorem entry0_v11 (c : Dev nD) : (V1 m ρ c main_v11 : S1x1024.Idx → EReal)
    = shapeCast S1x1024 (a10 m c) shapeCasts_S1024_S1x1024 := by
  show StableHlo.after hostOps0 (W0 m ρ c) (Proc.devRef .tc main_v11) = _
  after_results
  try (funext i; rfl)

/-- The positional bias is untouched by the first stretch. -/
theorem entry0_arg11 (c : Dev nD) : (V1 m ρ c main_arg11 : S2048x2048.Idx → EReal) = a11 m c := by
  show StableHlo.after hostOps0 (W0 m ρ c) (Proc.devRef .tc main_arg11) = _
  after_results
  try (funext i; rfl)

/-! ## A projection of the flattened operands is the linear layer -/

theorem proj_eq_lin (x : S8x2048x1024.Idx → EReal) (w : S1024x1024.Idx → EReal) (bias : S1024.Idx → EReal)
    (b : Fin 8) (s : Fin 2048) (e : Fin 1024) (r : Fin 16384) (hr : r.val = b.val * 2048 + s.val) :
    ProjArray.projG (shapeCast S16384x1024 x shapeCasts_S8x2048x1024_S16384x1024)
        (transpose S1024x1024 [1, 0] w transposes_S1024x1024_S1024x1024_1_0)
        (shapeCast S1x1024 bias shapeCasts_S1024_S1x1024) r e
      = Spec.lin x w bias b s e := by
  unfold ProjArray.projG Spec.lin
  refine congrArg₂ (· + ·) (Finset.sum_congr rfl fun k _ => congrArg₂ (· * ·) ?_ ?_) ?_
  · exact Cert.LibRowGroups.shapeCast_abc_nc_apply x _ r k b s hr
  · exact transpose_ix2_apply w _ k e
  · exact shapeCast_a_1a_apply bias _ (0 : Fin 1) e

/-! ## The projection kernel's outputs -/

theorem exit0_v15_0 (c : Dev nD) (b : Fin 8) (s : Fin 2048) (e : Fin 1024) (r : Fin 16384) (hr : r.val = b.val * 2048 + s.val) :
    (W2 m ρ c (Proc.devRef .tc main_v15_0) : S16384x1024.Idx → EReal) (ix2 r e) = Spec.lin (a0 m c) (a3 m c) (a4 m c) b s e := by
  rw [show (W2 m ρ c (Proc.devRef .tc main_v15_0) : S16384x1024.Idx → EReal)
      = (fun i => ProjArray.projG (V1 m ρ c main_v12) (V1 m ρ c main_v1) (V1 m ρ c main_v8) (i 0) (i 1)) from
    (W2_arr m ρ c 9).trans (ProjArray.final9 (V1 m ρ) c)]
  show ProjArray.projG (V1 m ρ c main_v12) (V1 m ρ c main_v1) (V1 m ρ c main_v8) r e = _
  rw [entry0_v12, entry0_v1, entry0_v8]
  exact proj_eq_lin _ _ _ b s e r hr

theorem exit0_v15_1 (c : Dev nD) (b : Fin 8) (s : Fin 2048) (e : Fin 1024) (r : Fin 16384) (hr : r.val = b.val * 2048 + s.val) :
    (W2 m ρ c (Proc.devRef .tc main_v15_1) : S16384x1024.Idx → EReal) (ix2 r e) = Spec.lin (a1 m c) (a5 m c) (a6 m c) b s e := by
  rw [show (W2 m ρ c (Proc.devRef .tc main_v15_1) : S16384x1024.Idx → EReal)
      = (fun i => ProjArray.projG (V1 m ρ c main_v13) (V1 m ρ c main_v3) (V1 m ρ c main_v9) (i 0) (i 1)) from
    (W2_arr m ρ c 10).trans (ProjArray.final10 (V1 m ρ) c)]
  show ProjArray.projG (V1 m ρ c main_v13) (V1 m ρ c main_v3) (V1 m ρ c main_v9) r e = _
  rw [entry0_v13, entry0_v3, entry0_v9]
  exact proj_eq_lin _ _ _ b s e r hr

theorem exit0_v15_2 (c : Dev nD) (b : Fin 8) (s : Fin 2048) (e : Fin 1024) (r : Fin 16384) (hr : r.val = b.val * 2048 + s.val) :
    (W2 m ρ c (Proc.devRef .tc main_v15_2) : S16384x1024.Idx → EReal) (ix2 r e) = Spec.lin (a2 m c) (a7 m c) (a8 m c) b s e := by
  rw [show (W2 m ρ c (Proc.devRef .tc main_v15_2) : S16384x1024.Idx → EReal)
      = (fun i => ProjArray.projG (V1 m ρ c main_v14) (V1 m ρ c main_v5) (V1 m ρ c main_v10) (i 0) (i 1)) from
    (W2_arr m ρ c 11).trans (ProjArray.final11 (V1 m ρ) c)]
  show ProjArray.projG (V1 m ρ c main_v14) (V1 m ρ c main_v5) (V1 m ρ c main_v10) r e = _
  rw [entry0_v14, entry0_v5, entry0_v10]
  exact proj_eq_lin _ _ _ b s e r hr

/-! ## The attention kernel's operands: the second stretch of host operations -/

theorem entry1_v16 (c : Dev nD) (b : Fin 8) (s : Fin 2048) (e : Fin 1024) :
    (V3 m ρ c main_v16 : S8x2048x1024.Idx → EReal) (ix3 b s e) = Spec.lin (a0 m c) (a3 m c) (a4 m c) b s e := by
  have h : (V3 m ρ c main_v16 : S8x2048x1024.Idx → EReal)
      = shapeCast S8x2048x1024 (W2 m ρ c (Proc.devRef .tc main_v15_0) : S16384x1024.Idx → EReal) shapeCasts_S16384x1024_S8x2048x1024 := by
    show StableHlo.after hostOps1 (W2 m ρ c) (Proc.devRef .tc main_v16) = _
    after_results
    try (funext i; rfl)
  rw [h]
  have hb : b.val < 8 := b.isLt
  have hs : s.val < 2048 := s.isLt
  refine (Cert.LibRowGroups.shapeCast_nc_abc_apply _ _ b s e (⟨b.val * 2048 + s.val, by omega⟩ : Fin 16384) rfl).trans ?_
  exact exit0_v15_0 m ρ c b s e _ rfl

theorem entry1_v17 (c : Dev nD) (b : Fin 8) (s : Fin 2048) (e : Fin 1024) :
    (V3 m ρ c main_v17 : S8x2048x1024.Idx → EReal) (ix3 b s e) = Spec.lin (a1 m c) (a5 m c) (a6 m c) b s e := by
  have h : (V3 m ρ c main_v17 : S8x2048x1024.Idx → EReal)
      = shapeCast S8x2048x1024 (W2 m ρ c (Proc.devRef .tc main_v15_1) : S16384x1024.Idx → EReal) shapeCasts_S16384x1024_S8x2048x1024 := by
    show StableHlo.after hostOps1 (W2 m ρ c) (Proc.devRef .tc main_v17) = _
    after_results
    try (funext i; rfl)
  rw [h]
  have hb : b.val < 8 := b.isLt
  have hs : s.val < 2048 := s.isLt
  refine (Cert.LibRowGroups.shapeCast_nc_abc_apply _ _ b s e (⟨b.val * 2048 + s.val, by omega⟩ : Fin 16384) rfl).trans ?_
  exact exit0_v15_1 m ρ c b s e _ rfl

theorem entry1_v18 (c : Dev nD) (b : Fin 8) (s : Fin 2048) (e : Fin 1024) :
    (V3 m ρ c main_v18 : S8x2048x1024.Idx → EReal) (ix3 b s e) = Spec.lin (a2 m c) (a7 m c) (a8 m c) b s e := by
  have h : (V3 m ρ c main_v18 : S8x2048x1024.Idx → EReal)
      = shapeCast S8x2048x1024 (W2 m ρ c (Proc.devRef .tc main_v15_2) : S16384x1024.Idx → EReal) shapeCasts_S16384x1024_S8x2048x1024 := by
    show StableHlo.after hostOps1 (W2 m ρ c) (Proc.devRef .tc main_v18) = _
    after_results
    try (funext i; rfl)
  rw [h]
  have hb : b.val < 8 := b.isLt
  have hs : s.val < 2048 := s.isLt
  refine (Cert.LibRowGroups.shapeCast_nc_abc_apply _ _ b s e (⟨b.val * 2048 + s.val, by omega⟩ : Fin 16384) rfl).trans ?_
  exact exit0_v15_2 m ρ c b s e _ rfl

/-- The positional bias in the kernel's format. -/
theorem entry1_v19 (c : Dev nD) : (V3 m ρ c main_v19 : S2048x2048.Idx → EReal) = a11 m c := by
  have h : (V3 m ρ c main_v19 : S2048x2048.Idx → EReal)
      = (W2 m ρ c (Proc.devRef .tc main_arg11) : S2048x2048.Idx → EReal) := by
    show StableHlo.after hostOps1 (W2 m ρ c) (Proc.devRef .tc main_v19) = _
    after_results
    try (funext i; rfl)
  rw [h]
  exact (W2_of_ne m ρ c main_arg11 (by decide)).trans (entry0_arg11 m ρ c)

/-- The output weights, transposed. -/
theorem entry1_v7 (c : Dev nD) (d e : Fin 1024) : (V3 m ρ c main_v7 : S1024x1024.Idx → EReal) (ix2 d e) = a9 m c (ix2 e d) := by
  have h : (V3 m ρ c main_v7 : S1024x1024.Idx → EReal) = (W2 m ρ c (Proc.devRef .tc main_v7) : S1024x1024.Idx → EReal) := by
    show StableHlo.after hostOps1 (W2 m ρ c) (Proc.devRef .tc main_v7) = _
    after_results
    try (funext i; rfl)
  rw [h, show (W2 m ρ c (Proc.devRef .tc main_v7) : S1024x1024.Idx → EReal) = V1 m ρ c main_v7 from W2_of_ne m ρ c main_v7 (by decide),
    entry0_v7]
  exact transpose_ix2_apply (a9 m c) _ d e

/-- The output bias as one row. -/
theorem entry1_v11 (c : Dev nD) (e : Fin 1024) : (V3 m ρ c main_v11 : S1x1024.Idx → EReal) (ix2 (0 : Fin 1) e) = a10 m c (ix1 e) := by
  have h : (V3 m ρ c main_v11 : S1x1024.Idx → EReal) = (W2 m ρ c (Proc.devRef .tc main_v11) : S1x1024.Idx → EReal) := by
    show StableHlo.after hostOps1 (W2 m ρ c) (Proc.devRef .tc main_v11) = _
    after_results
    try (funext i; rfl)
  rw [h, show (W2 m ρ c (Proc.devRef .tc main_v11) : S1x1024.Idx → EReal) = V1 m ρ c main_v11 from W2_of_ne m ρ c main_v11 (by decide),
    entry0_v11]
  exact shapeCast_a_1a_apply (a10 m c) _ (0 : Fin 1) e

end Cert.Attn.HostLayers

end
-- ==== Proof.SpecResults.lean ====
/-
  The two results of the attention head as whole arrays over the twelve argument arrays: the output
  `[8, 2048, 1024]` and the attention weights `[8, 2048, 2048]`, each read coordinate by coordinate from the
  specification's functions.
-/
import proofs.«155491_j8237747273925_2_alg».proof.Proof.Spec

noncomputable section

namespace Cert.Attn.Spec

open Idealize.ShloMosaic Idealize.ShloMosaic.ValueIdx

/-- The output array. -/
def specOut (x0 x1 x2 : (⟨3, ![8, 2048, 1024]⟩ : Shape).Idx → EReal) (x3 : (⟨2, ![1024, 1024]⟩ : Shape).Idx → EReal)
    (x4 : (⟨1, ![1024]⟩ : Shape).Idx → EReal) (x5 : (⟨2, ![1024, 1024]⟩ : Shape).Idx → EReal) (x6 : (⟨1, ![1024]⟩ : Shape).Idx → EReal)
    (x7 : (⟨2, ![1024, 1024]⟩ : Shape).Idx → EReal) (x8 : (⟨1, ![1024]⟩ : Shape).Idx → EReal)
    (x9 : (⟨2, ![1024, 1024]⟩ : Shape).Idx → EReal) (x10 : (⟨1, ![1024]⟩ : Shape).Idx → EReal)
    (x11 : (⟨2, ![2048, 2048]⟩ : Shape).Idx → EReal) : (⟨3, ![8, 2048, 1024]⟩ : Shape).Idx → EReal :=
  fun i => outp (lin x0 x3 x4) (lin x1 x5 x6) (lin x2 x7 x8) x11 x9 x10 (i 0) (i 1) (i 2)

/-- The attention-weights array. -/
def specP (x0 x1 : (⟨3, ![8, 2048, 1024]⟩ : Shape).Idx → EReal) (x3 : (⟨2, ![1024, 1024]⟩ : Shape).Idx → EReal)
    (x4 : (⟨1, ![1024]⟩ : Shape).Idx → EReal) (x5 : (⟨2, ![1024, 1024]⟩ : Shape).Idx → EReal) (x6 : (⟨1, ![1024]⟩ : Shape).Idx → EReal)
    (x11 : (⟨2, ![2048, 2048]⟩ : Shape).Idx → EReal) : (⟨3, ![8, 2048, 2048]⟩ : Shape).Idx → EReal :=
  fun i => probs (lin x0 x3 x4) (lin x1 x5 x6) x11 (i 0) (i 1) (i 2)

end Cert.Attn.Spec

end
-- ==== Proof.KernelValue.lean ====
/-
  The idealized kernel's two results are the specification's arrays of the argument arrays.

  The attention kernel finds the projected queries, keys and values in its first three operands (the linear layers
  of the arguments), the positional bias, the output weights transposed and the output bias row; what its
  write-backs leave is the softmax of the kernel-spelt scores and the output layer over them, which are the
  specification's weights and output (the score's two spellings agree).
-/
import proofs.«155491_j8237747273925_2_alg».proof.Proof.KernelRun
import proofs.«155491_j8237747273925_2_alg».proof.Proof.AttnArray
import proofs.«155491_j8237747273925_2_alg».proof.Proof.HostLayers
import proofs.«155491_j8237747273925_2_alg».proof.Proof.SpecResults

set_option maxRecDepth 16384

noncomputable section

open scoped BigOperators

namespace Cert.Attn.KernelValue

open Cert.KernelIdeal Cert.KernelIdeal.Gen Idealize.ShloMosaic Idealize.ShloMosaic.TcCoe Idealize.ShloMosaic.ValueIdx
open Idealize.SL.Sem
open Cert.Attn.HostLayers

variable (m : (ℓ : Loc nD τ sig) → Buf (Elt Ideal) ℓ) (ρ : Dev nD → PrngReg)

/-- The weights over the arrays the attention kernel finds are the specification's. -/
theorem probG_eq (c : Dev nD) (b : Fin 8) (q k : Fin 2048) :
    AttnArray.probG (V3 m ρ c main_v16) (V3 m ρ c main_v17) (V3 m ρ c main_v19) b q k
      = Spec.probs (Spec.lin (a0 m c) (a3 m c) (a4 m c)) (Spec.lin (a1 m c) (a5 m c) (a6 m c)) (a11 m c) b q k := by
  unfold AttnArray.probG
  rw [show AttnArray.act (V3 m ρ c main_v16) = Spec.lin (a0 m c) (a3 m c) (a4 m c) from
      funext fun b => funext fun s => funext fun e => entry1_v16 m ρ c b s e,
    show AttnArray.act (V3 m ρ c main_v17) = Spec.lin (a1 m c) (a5 m c) (a6 m c) from
      funext fun b => funext fun s => funext fun e => entry1_v17 m ρ c b s e,
    entry1_v19 m ρ c]
  exact Spec.softmax_kscore _ _ _ b q k

/-- The attention-weights buffer after the run. -/
theorem probs_value (c : Dev nD) :
    (W4 m ρ c (Proc.devRef .tc main_v20_1) : S8x2048x2048.Idx → EReal)
      = Spec.specP (a0 m c) (a1 m c) (a3 m c) (a4 m c) (a5 m c) (a6 m c) (a11 m c) := by
  refine ((W4_arr m ρ c 7).trans (AttnArray.final7 (V3 m ρ) c)).trans ?_
  funext i
  exact probG_eq m ρ c (i 0) (i 1) (i 2)

/-- The output buffer after the run. -/
theorem out_value (c : Dev nD) :
    (W4 m ρ c (Proc.devRef .tc main_v20_0) : S8x2048x1024.Idx → EReal)
      = Spec.specOut (a0 m c) (a1 m c) (a2 m c) (a3 m c) (a4 m c) (a5 m c) (a6 m c) (a7 m c) (a8 m c) (a9 m c) (a10 m c) (a11 m c) := by
  refine ((W4_arr m ρ c 6).trans (AttnArray.final6 (V3 m ρ) c)).trans ?_
  funext i
  obtain ⟨b, q, e, rfl⟩ : ∃ (b : Fin 8) (q : Fin 2048) (e : Fin 1024), i = ix3 b q e := ⟨i 0, i 1, i 2, eq_ix3 i⟩
  show AttnArray.outG (V3 m ρ c main_v16) (V3 m ρ c main_v17) (V3 m ρ c main_v18) (V3 m ρ c main_v19) (V3 m ρ c main_v7) (V3 m ρ c main_v11) b q e
    = Spec.outp (Spec.lin (a0 m c) (a3 m c) (a4 m c)) (Spec.lin (a1 m c) (a5 m c) (a6 m c)) (Spec.lin (a2 m c) (a7 m c) (a8 m c))
        (a11 m c) (a9 m c) (a10 m c) b q e
  unfold AttnArray.outG Spec.outp Spec.ctx
  refine congrArg₂ (· + ·) (Finset.sum_congr rfl fun d _ => congrArg₂ (· * ·)
    (Finset.sum_congr rfl fun k _ => congrArg₂ (· * ·) (probG_eq m ρ c b q k) (entry1_v18 m ρ c b k d))
    (entry1_v7 m ρ c d e)) (entry1_v11 m ρ c e)

/-- THE IDEALIZED KERNEL'S RUN: every weakly fair execution terminates without a fault with the two results at the
    specification's arrays of the launch arguments, and the arguments unchanged. -/
theorem run_spec : θ_run defs (onTc (τ := τ) (main (F := Ideal))) ⟨m, fun _ => 0, ρ⟩ (fun r => ∀ c : Dev nD,
      r.2.mem ((c.tc : Thread nD τ).loc main_v20_0) = Spec.specOut (a0 m c) (a1 m c) (a2 m c) (a3 m c) (a4 m c) (a5 m c) (a6 m c) (a7 m c) (a8 m c) (a9 m c) (a10 m c) (a11 m c)
      ∧ r.2.mem ((c.tc : Thread nD τ).loc main_v20_1) = Spec.specP (a0 m c) (a1 m c) (a3 m c) (a4 m c) (a5 m c) (a6 m c) (a11 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (out_value m ρ c), (h c).2.1.trans (probs_value m ρ c), (h c).2.2⟩)
    (Cert.KernelIdeal.Results.run_results m ρ)

end Cert.Attn.KernelValue

end
-- ==== Proof.RefValue.lean ====
/-
  The reference's two results, read one operation at a time, are the specification's functions.

  Its three `dot_general`s with a broadcast bias are the linear layers; the batched `dot_general` of the projected
  queries and keys, divided by the square root of `1024` and offset by the broadcast positional bias, is the score
  (`sqrt 1024 = 32`); the reduce-maximum from `-∞` (and the maximum with `-∞` jax adds, an identity), the
  exponential, the reduce-sum from zero and the quotient are the row's softmax; the last two `dot_general`s and the
  broadcast bias are the context and the output layer.
-/
import proofs.«155491_j8237747273925_2_alg».proof.Proof.Gen.ReferenceIdeal.Run
import proofs.«155491_j8237747273925_2_alg».proof.Proof.Gen.ReferenceIdeal.Read
import proofs.«155491_j8237747273925_2_alg».proof.Proof.Spec
import Idealize.ShloMosaic.PureOps.Ideal.Laws

set_option maxRecDepth 16384

noncomputable section

open scoped BigOperators

namespace Cert.Attn.RefValue

open Cert.ReferenceIdeal Cert.ReferenceIdeal.Gen Cert.ReferenceIdeal.Read
open Idealize.ShloMosaic Idealize.ShloMosaic.TcCoe Idealize.ShloMosaic.ValueIdx Idealize.SL.Sem

/-! ## The linear layers -/

theorem q_apply (x0 : (⟨S8x2048x1024, .f32⟩ : BufTy).Contents (Elt Ideal)) (x3 : (⟨S1024x1024, .f32⟩ : BufTy).Contents (Elt Ideal)) (x4 : (⟨S1024, .f32⟩ : BufTy).Contents (Elt Ideal)) (b : Fin 8) (s : Fin 2048) (e : Fin 1024) :
    val_main_v3 (F := Ideal) x0 x3 x4 (ix3 b s e) = Spec.lin x0 x3 x4 b s e := by
  rw [val_main_v3_apply, val_main_v0_apply, val_main_v2_apply, val_main_v1_apply]
  unfold Spec.lin
  refine congrArg₂ (· + ·) (Finset.sum_congr rfl fun d _ => congrArg₂ (· * ·) (congrArg x0 ?_) (congrArg x3 ?_)) (congrArg x4 ?_)
  · exact funext fun a => match a with | ⟨0, _⟩ => rfl | ⟨1, _⟩ => rfl | ⟨2, _⟩ => rfl
  · exact funext fun a => match a with | ⟨0, _⟩ => rfl | ⟨1, _⟩ => rfl
  · exact funext fun a => match a with | ⟨0, _⟩ => rfl

theorem k_apply (x1 : (⟨S8x2048x1024, .f32⟩ : BufTy).Contents (Elt Ideal)) (x5 : (⟨S1024x1024, .f32⟩ : BufTy).Contents (Elt Ideal)) (x6 : (⟨S1024, .f32⟩ : BufTy).Contents (Elt Ideal)) (b : Fin 8) (s : Fin 2048) (e : Fin 1024) :
    val_main_v7 (F := Ideal) x1 x5 x6 (ix3 b s e) = Spec.lin x1 x5 x6 b s e := by
  rw [val_main_v7_apply, val_main_v4_apply, val_main_v6_apply, val_main_v5_apply]
  unfold Spec.lin
  refine congrArg₂ (· + ·) (Finset.sum_congr rfl fun d _ => congrArg₂ (· * ·) (congrArg x1 ?_) (congrArg x5 ?_)) (congrArg x6 ?_)
  · exact funext fun a => match a with | ⟨0, _⟩ => rfl | ⟨1, _⟩ => rfl | ⟨2, _⟩ => rfl
  · exact funext fun a => match a with | ⟨0, _⟩ => rfl | ⟨1, _⟩ => rfl
  · exact funext fun a => match a with | ⟨0, _⟩ => rfl

theorem v_apply (x2 : (⟨S8x2048x1024, .f32⟩ : BufTy).Contents (Elt Ideal)) (x7 : (⟨S1024x1024, .f32⟩ : BufTy).Contents (Elt Ideal)) (x8 : (⟨S1024, .f32⟩ : BufTy).Contents (Elt Ideal)) (b : Fin 8) (s : Fin 2048) (e : Fin 1024) :
    val_main_v11 (F := Ideal) x2 x7 x8 (ix3 b s e) = Spec.lin x2 x7 x8 b s e := by
  rw [val_main_v11_apply, val_main_v8_apply, val_main_v10_apply, val_main_v9_apply]
  unfold Spec.lin
  refine congrArg₂ (· + ·) (Finset.sum_congr rfl fun d _ => congrArg₂ (· * ·) (congrArg x2 ?_) (congrArg x7 ?_)) (congrArg x8 ?_)
  · exact funext fun a => match a with | ⟨0, _⟩ => rfl | ⟨1, _⟩ => rfl | ⟨2, _⟩ => rfl
  · exact funext fun a => match a with | ⟨0, _⟩ => rfl | ⟨1, _⟩ => rfl
  · exact funext fun a => match a with | ⟨0, _⟩ => rfl

/-! ## The scores -/

theorem score_apply (x0 x1 : (⟨S8x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x11 : (⟨S2048x2048, .f32⟩ : BufTy).Contents (Elt Ideal))
    (b : Fin 8) (q k : Fin 2048) :
    val_main_v18 (F := Ideal) x0 x1 x3 x4 x5 x6 x11 (ix3 b q k)
      = Spec.score (Spec.lin x0 x3 x4) (Spec.lin x1 x5 x6) x11 b q k := by
  rw [val_main_v18_apply, val_main_v15_apply, val_main_v12_apply, val_main_v14_apply, val_main_v13_apply, val_main_cst_apply,
    val_main_v17_apply, val_main_v16_apply]
  unfold Spec.score
  refine congrArg₂ (· + ·) ?_ (congrArg x11 ?_)
  · show Ideal.div _ (Ideal.sqrt (Ideal.ofBits .f32 0x44800000#32)) = _
    rw [Consts.sqrt_ofBits_1024]
    refine congrArg (Ideal.div · _) (Finset.sum_congr rfl fun d _ => ?_)
    rw [show lidx_main_v12 (ix3 b q k) d = ix3 b q d from funext fun a => match a with | ⟨0, _⟩ => rfl | ⟨1, _⟩ => rfl | ⟨2, _⟩ => rfl,
      show ridx_main_v12 (ix3 b q k) d = ix3 b k d from funext fun a => match a with | ⟨0, _⟩ => rfl | ⟨1, _⟩ => rfl | ⟨2, _⟩ => rfl, q_apply, k_apply]
  · exact funext fun a => match a with | ⟨0, _⟩ => rfl | ⟨1, _⟩ => rfl

/-! ## The softmax -/

instance : Subsingleton S_.Idx := ⟨fun a b => funext fun d => d.elim0⟩

theorem rowmax_apply (x0 x1 : (⟨S8x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x11 : (⟨S2048x2048, .f32⟩ : BufTy).Contents (Elt Ideal))
    (b : Fin 8) (q : Fin 2048) :
    val_main_v21 (F := Ideal) x0 x1 x3 x4 x5 x6 x11 (ix2 b q)
      = Spec.rowMax (fun k => Spec.score (Spec.lin x0 x3 x4) (Spec.lin x1 x5 x6) x11 b q k) := by
  rw [val_main_v21_apply, val_main_v20_apply, val_main_cst_1_apply]
  show max (Ideal.ofBits .f32 0xFF800000#32) _ = _
  rw [Consts.max_negInf]
  unfold val_main_v19 Spec.rowMax
  have h : S8x2048x2048.Reduces [2] S8x2048 := by decide
  refine (Host.reduce_eq_fold_single FloatOps.maximumf _ _ reducesTo_S8x2048x2048_S8x2048_d2 h h_S_ (ix2 b q)).trans ?_
  show (Finset.univ : Finset (Fin 2048)).fold max (Ideal.ofBits .f32 0xFF800000#32)
      (fun k : Fin 2048 => val_main_v18 (F := Ideal) x0 x1 x3 x4 x5 x6 x11 (h.lift (ix2 b q) k)) = _
  refine congrArg (fun f : Fin 2048 → EReal => (Finset.univ : Finset (Fin 2048)).fold max (Ideal.ofBits .f32 0xFF800000#32) f)
    (funext fun (k : Fin 2048) => ?_)
  rw [show h.lift (ix2 b q) k = ix3 b q k from funext fun a => Fin.ext (match a with | ⟨0, _⟩ => rfl | ⟨1, _⟩ => rfl | ⟨2, _⟩ => rfl), score_apply]

theorem exp_apply (x0 x1 : (⟨S8x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x11 : (⟨S2048x2048, .f32⟩ : BufTy).Contents (Elt Ideal))
    (b : Fin 8) (q k : Fin 2048) :
    val_main_v25 (F := Ideal) x0 x1 x3 x4 x5 x6 x11 (ix3 b q k)
      = Ideal.exp (Spec.score (Spec.lin x0 x3 x4) (Spec.lin x1 x5 x6) x11 b q k
          - Spec.rowMax (fun k' => Spec.score (Spec.lin x0 x3 x4) (Spec.lin x1 x5 x6) x11 b q k')) := by
  rw [val_main_v25_apply, val_main_v24_apply, val_main_v23_apply, val_main_v22_apply]
  show Ideal.exp (_ - _) = _
  rw [score_apply, show idx_main_v22 (idx_main_v23 (ix3 b q k)) = ix2 b q from funext fun a => match a with | ⟨0, _⟩ => rfl | ⟨1, _⟩ => rfl, rowmax_apply]

theorem probs_apply (x0 x1 : (⟨S8x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x11 : (⟨S2048x2048, .f32⟩ : BufTy).Contents (Elt Ideal))
    (b : Fin 8) (q k : Fin 2048) :
    val_main_v29 (F := Ideal) x0 x1 x3 x4 x5 x6 x11 (ix3 b q k)
      = Spec.probs (Spec.lin x0 x3 x4) (Spec.lin x1 x5 x6) x11 b q k := by
  rw [val_main_v29_apply, val_main_v28_apply, val_main_v27_apply, val_main_v26_apply, val_main_cst_2_apply]
  show Ideal.div _ (Ideal.ofBits .f32 0x00000000#32 + _) = _
  rw [Ideal.ofBits_zero_f32, zero_add, exp_apply]
  unfold Spec.probs Spec.softmax
  refine congrArg (Ideal.div _) (Finset.sum_congr rfl fun k' _ => ?_)
  rw [show idx_main_v26 (idx_main_v27 (idx_main_v28 (ix3 b q k))) k' = ix3 b q k' from funext fun a => match a with | ⟨0, _⟩ => rfl | ⟨1, _⟩ => rfl | ⟨2, _⟩ => rfl, exp_apply]

/-! ## The context and the output layer -/

theorem out_apply (x0 x1 x2 : (⟨S8x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal))
    (x9 : (⟨S1024x1024, .f32⟩ : BufTy).Contents (Elt Ideal)) (x10 : (⟨S1024, .f32⟩ : BufTy).Contents (Elt Ideal)) (x11 : (⟨S2048x2048, .f32⟩ : BufTy).Contents (Elt Ideal)) (b : Fin 8) (q : Fin 2048) (e : Fin 1024) :
    val_main_v34 (F := Ideal) x0 x1 x2 x3 x4 x5 x6 x7 x8 x9 x10 x11 (ix3 b q e)
      = Spec.outp (Spec.lin x0 x3 x4) (Spec.lin x1 x5 x6) (Spec.lin x2 x7 x8) x11 x9 x10 b q e := by
  rw [val_main_v34_apply, val_main_v31_apply, val_main_v33_apply, val_main_v32_apply]
  unfold Spec.outp
  refine congrArg₂ (· + ·) (Finset.sum_congr rfl fun d _ => congrArg₂ (· * ·) ?_ (congrArg x9 ?_)) (congrArg x10 ?_)
  · rw [show lidx_main_v31 (ix3 b q e) d = ix3 b q d from funext fun a => match a with | ⟨0, _⟩ => rfl | ⟨1, _⟩ => rfl | ⟨2, _⟩ => rfl, val_main_v30_apply]
    unfold Spec.ctx
    refine Finset.sum_congr rfl fun k _ => ?_
    rw [show lidx_main_v30 (ix3 b q d) k = ix3 b q k from funext fun a => match a with | ⟨0, _⟩ => rfl | ⟨1, _⟩ => rfl | ⟨2, _⟩ => rfl,
      show ridx_main_v30 (ix3 b q d) k = ix3 b k d from funext fun a => match a with | ⟨0, _⟩ => rfl | ⟨1, _⟩ => rfl | ⟨2, _⟩ => rfl, probs_apply, v_apply]
  · exact funext fun a => match a with | ⟨0, _⟩ => rfl | ⟨1, _⟩ => rfl
  · exact funext fun a => match a with | ⟨0, _⟩ => rfl

end Cert.Attn.RefValue

end
-- ==== Proof.RefResults.lean ====
/-
  The reference's two result terms are the specification's arrays of the argument arrays.
-/
import proofs.«155491_j8237747273925_2_alg».proof.Proof.RefValue
import proofs.«155491_j8237747273925_2_alg».proof.Proof.SpecResults

set_option maxRecDepth 16384

noncomputable section

namespace Cert.Attn.RefValue

open Cert.ReferenceIdeal Cert.ReferenceIdeal.Gen Cert.ReferenceIdeal.Read
open Idealize.ShloMosaic Idealize.ShloMosaic.TcCoe Idealize.ShloMosaic.ValueIdx Idealize.SL.Sem

theorem ref_out (x0 x1 x2 : (⟨S8x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal))
    (x9 : (⟨S1024x1024, .f32⟩ : BufTy).Contents (Elt Ideal)) (x10 : (⟨S1024, .f32⟩ : BufTy).Contents (Elt Ideal)) (x11 : (⟨S2048x2048, .f32⟩ : BufTy).Contents (Elt Ideal)) :
    val_main_v34 (F := Ideal) x0 x1 x2 x3 x4 x5 x6 x7 x8 x9 x10 x11 = Spec.specOut x0 x1 x2 x3 x4 x5 x6 x7 x8 x9 x10 x11 := by
  funext i
  obtain ⟨b, q, e, rfl⟩ : ∃ (b : Fin 8) (q : Fin 2048) (e : Fin 1024), i = ix3 b q e := ⟨i 0, i 1, i 2, eq_ix3 i⟩
  exact out_apply x0 x1 x2 x3 x4 x5 x6 x7 x8 x9 x10 x11 b q e

theorem ref_probs (x0 x1 : (⟨S8x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x11 : (⟨S2048x2048, .f32⟩ : BufTy).Contents (Elt Ideal)) :
    val_main_v29 (F := Ideal) x0 x1 x3 x4 x5 x6 x11 = Spec.specP x0 x1 x3 x4 x5 x6 x11 := by
  funext i
  obtain ⟨b, q, k, rfl⟩ : ∃ (b : Fin 8) (q : Fin 2048) (k : Fin 2048), i = ix3 b q k := ⟨i 0, i 1, i 2, eq_ix3 i⟩
  exact probs_apply x0 x1 x3 x4 x5 x6 x11 b q k

end Cert.Attn.RefValue

end
-- ==== Proof.lean ====
/-
  The certificate of an attention head: a Pallas kernel pair (a merged query/key/value projection, then
  scaled-dot-product attention with a learned positional bias and a fused output projection) against its jnp
  reference, equal at the ideal values.

  Both programs compute, from the twelve argument arrays,
    Q, K, V = x · Wᵀ + b (three linear layers),
    scores (b, q, k) = (∑ d, Q (b, q, d) · K (b, k, d)) / 32 + pos (q, k),
    P = the softmax of each row of scores,   out = (P · V) · Woᵀ + bo,
  and return `out` and `P`. They differ only in arrangement: the kernel tiles the rows (512 per grid point of the
  projection, 256 query rows per grid point of the attention), passes the weights transposed, changes float formats
  around its matrix products (identities on the extended reals), and folds the factor `1/32 = 1/sqrt 1024` into the
  query before the score's sum where the reference divides the sum by `sqrt 1024`; a nonnegative real factor moves
  across a sum of extended reals whatever the terms, so the two scores are one extended real and no finiteness of
  the inputs is used. The three frames are the generated ones (the reference's is its run with the results
  dropped); the idealization rewrote nothing, so `preserves` is `True`.
-/
import proofs.«155491_j8237747273925_2_alg».proof.Defs
import proofs.«155491_j8237747273925_2_alg».proof.Proof.Gen.Kernel
import proofs.«155491_j8237747273925_2_alg».proof.Proof.Gen.Kernel.Skeleton
import proofs.«155491_j8237747273925_2_alg».proof.Proof.Gen.Kernel.Launch
import proofs.«155491_j8237747273925_2_alg».proof.Proof.Gen.Kernel.Points
import proofs.«155491_j8237747273925_2_alg».proof.Proof.Gen.Kernel.Frame
import proofs.«155491_j8237747273925_2_alg».proof.Proof.Gen.KernelIdeal
import proofs.«155491_j8237747273925_2_alg».proof.Proof.Gen.KernelIdeal.Skeleton
import proofs.«155491_j8237747273925_2_alg».proof.Proof.Gen.KernelIdeal.Launch
import proofs.«155491_j8237747273925_2_alg».proof.Proof.Gen.KernelIdeal.Points
import proofs.«155491_j8237747273925_2_alg».proof.Proof.Gen.KernelIdeal.Frame
import proofs.«155491_j8237747273925_2_alg».proof.Proof.Gen.ReferenceIdeal
import proofs.«155491_j8237747273925_2_alg».proof.Proof.Gen.ReferenceIdeal.Run
import proofs.«155491_j8237747273925_2_alg».proof.Proof.Gen.ReferenceIdeal.Read
import proofs.«155491_j8237747273925_2_alg».proof.Proof.Gen.Pre_finite_inputs
import proofs.«155491_j8237747273925_2_alg».proof.Proof.KernelValue
import proofs.«155491_j8237747273925_2_alg».proof.Proof.RefResults
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both idealized programs end with the specification's two arrays of the arguments, which agree. -/
theorem algebraic : Cert.algebraic_KernelIdeal_ReferenceIdeal := by
  intro m ρ m' ρ' _ hagree
  refine ⟨_, _, Cert.Attn.KernelValue.run_spec m ρ, ?_⟩
  refine (θ_run Cert.ReferenceIdeal.defs _ _).mono (fun r h c => ⟨?_, ?_, (h c).2.2⟩)
    (Cert.ReferenceIdeal.Value.run (F := Ideal) m' ρ')
  · obtain ⟨h0, h1, h2, h3, h4, h5, h6, h7, h8, h9, h10, h11⟩ := hagree c
    rw [(h c).1, Cert.ReferenceIdeal.Read.val_main_v34_eq, Cert.Attn.RefValue.ref_out,
      h0, h1, h2, h3, h4, h5, h6, h7, h8, h9, h10, h11]
  · obtain ⟨h0, h1, h2, h3, h4, h5, h6, h7, h8, h9, h10, h11⟩ := hagree c
    rw [(h c).2.1, Cert.ReferenceIdeal.Read.val_main_v29_eq, Cert.Attn.RefValue.ref_probs,
      h0, h1, h3, h4, h5, h6, h11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
